-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S513x512 : Shape := ⟨2, ![513, 512]⟩
abbrev S513 : Shape := ⟨1, ![513]⟩
abbrev S127x513 : Shape := ⟨2, ![127, 513]⟩
abbrev S32768x513 : Shape := ⟨2, ![32768, 513]⟩
abbrev S32768 : Shape := ⟨1, ![32768]⟩
abbrev S128x7 : Shape := ⟨2, ![128, 7]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S513x512 : S_.BroadcastsInDim S513x512 (![] : Fin 0 → Fin S513x512.rank)
  reducesTo_S513x512_S_d0_1 : S513x512.ReducesTo [0, 1] S_
  bcast_S_S513 : S_.BroadcastsInDim S513 (![] : Fin 0 → Fin S513.rank)
  reducesTo_S513_S_d0 : S513.ReducesTo [0] S_
  bcast_S_S127x513 : S_.BroadcastsInDim S127x513 (![] : Fin 0 → Fin S127x513.rank)
  reducesTo_S127x513_S_d0_1 : S127x513.ReducesTo [0, 1] S_
  bcast_S_S32768x513 : S_.BroadcastsInDim S32768x513 (![] : Fin 0 → Fin S32768x513.rank)
  reducesTo_S32768x513_S_d0_1 : S32768x513.ReducesTo [0, 1] S_
  bcast_S_S32768 : S_.BroadcastsInDim S32768 (![] : Fin 0 → Fin S32768.rank)
  reducesTo_S32768_S_d0 : S32768.ReducesTo [0] S_

variable [Facts]

def fn_part1 {F : FTy → Type} [FloatOps F] (main_arg4 : FVec F S32768x513 .f32) (main_arg5 : FVec F S32768 .f32) (main_v13 : IVec S_ 1) (main_v16 : IVec S127x513 1) : IVec S_ 1 :=
  let main_c_5 : IVec S_ 1 := constantI S_ 1 1#1
  let main_v17 : IVec S_ 1 := (fun x v => Host.reduce IntOp.andi x v reducesTo_S127x513_S_d0_1 h_S_) main_v16 main_c_5
  let main_v18 : IVec S_ 1 := andi main_v13 main_v17
  let main_v19 : FVec F S32768x513 .f32 := Host.absf main_arg4
  let main_cst_6 : FVec F S_ .f32 := constant S_ .f32 0x7F800000#32
  let main_v20 : FVec F S32768x513 .f32 := broadcastInDim S32768x513 ![] bcast_S_S32768x513 main_cst_6
  let main_v21 : IVec S32768x513 1 := cmpf .olt main_v19 main_v20
  let main_c_7 : IVec S_ 1 := constantI S_ 1 1#1
  let main_v22 : IVec S_ 1 := (fun x v => Host.reduce IntOp.andi x v reducesTo_S32768x513_S_d0_1 h_S_) main_v21 main_c_7
  let main_v23 : IVec S_ 1 := andi main_v18 main_v22
  let main_v24 : FVec F S32768 .f32 := Host.absf main_arg5
  let main_cst_8 : FVec F S_ .f32 := constant S_ .f32 0x7F800000#32
  let main_v25 : FVec F S32768 .f32 := broadcastInDim S32768 ![] bcast_S_S32768 main_cst_8
  let main_v26 : IVec S32768 1 := cmpf .olt main_v24 main_v25
  let main_c_9 : IVec S_ 1 := constantI S_ 1 1#1
  let main_v27 : IVec S_ 1 := (fun x v => Host.reduce IntOp.andi x v reducesTo_S32768_S_d0 h_S_) main_v26 main_c_9
  let main_v28 : IVec S_ 1 := andi main_v23 main_v27
  main_v28

def fn {F : FTy → Type} [FloatOps F] (main_arg0 : FVec F S8192x512 .f32) (main_arg1 : FVec F S513x512 .f32) (main_arg2 : FVec F S513 .f32) (main_arg3 : FVec F S127x513 .f32) (main_arg4 : FVec F S32768x513 .f32) (main_arg5 : FVec F S32768 .f32) (main_arg6 : IVec S128x7 32) (main_arg7 : IVec S128x7 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S513x512 .f32 := Host.absf main_arg1
  let main_cst_0 : FVec F S_ .f32 := constant S_ .f32 0x7F800000#32
  let main_v5 : FVec F S513x512 .f32 := broadcastInDim S513x512 ![] bcast_S_S513x512 main_cst_0
  let main_v6 : IVec S513x512 1 := cmpf .olt main_v4 main_v5
  let main_c_1 : IVec S_ 1 := constantI S_ 1 1#1
  let main_v7 : IVec S_ 1 := (fun x v => Host.reduce IntOp.andi x v reducesTo_S513x512_S_d0_1 h_S_) main_v6 main_c_1
  let main_v8 : IVec S_ 1 := andi main_v3 main_v7
  let main_v9 : FVec F S513 .f32 := Host.absf main_arg2
  let main_cst_2 : FVec F S_ .f32 := constant S_ .f32 0x7F800000#32
  let main_v10 : FVec F S513 .f32 := broadcastInDim S513 ![] bcast_S_S513 main_cst_2
  let main_v11 : IVec S513 1 := cmpf .olt main_v9 main_v10
  let main_c_3 : IVec S_ 1 := constantI S_ 1 1#1
  let main_v12 : IVec S_ 1 := (fun x v => Host.reduce IntOp.andi x v reducesTo_S513_S_d0 h_S_) main_v11 main_c_3
  let main_v13 : IVec S_ 1 := andi main_v8 main_v12
  let main_v14 : FVec F S127x513 .f32 := Host.absf main_arg3
  let main_cst_4 : FVec F S_ .f32 := constant S_ .f32 0x7F800000#32
  let main_v15 : FVec F S127x513 .f32 := broadcastInDim S127x513 ![] bcast_S_S127x513 main_cst_4
  let main_v16 : IVec S127x513 1 := cmpf .olt main_v14 main_v15
  fn_part1 (F := F) main_arg4 main_arg5 main_v13 main_v16
-- ==== Kernel.lean ====
abbrev S8192x512 : Shape := ⟨2, ![8192, 512]⟩
abbrev S513x512 : Shape := ⟨2, ![513, 512]⟩
abbrev S513 : Shape := ⟨1, ![513]⟩
abbrev S127x513 : Shape := ⟨2, ![127, 513]⟩
abbrev S32768x513 : Shape := ⟨2, ![32768, 513]⟩
abbrev S32768 : Shape := ⟨1, ![32768]⟩
abbrev S128x7 : Shape := ⟨2, ![128, 7]⟩
abbrev S512x513 : Shape := ⟨2, ![512, 513]⟩
abbrev S8192x513 : Shape := ⟨2, ![8192, 513]⟩
abbrev S1x513 : Shape := ⟨2, ![1, 513]⟩
abbrev S_ : Shape := ⟨0, ![]⟩
abbrev S8192 : Shape := ⟨1, ![8192]⟩
abbrev S8192x1 : Shape := ⟨2, ![8192, 1]⟩
abbrev S127 : Shape := ⟨1, ![127]⟩
abbrev S127x1 : Shape := ⟨2, ![127, 1]⟩
abbrev S513x127 : Shape := ⟨2, ![513, 127]⟩
abbrev S8192x127 : Shape := ⟨2, ![8192, 127]⟩
abbrev S127x8192 : Shape := ⟨2, ![127, 8192]⟩
abbrev S1x127x8192 : Shape := ⟨3, ![1, 127, 8192]⟩
abbrev S2x127x8192 : Shape := ⟨3, ![2, 127, 8192]⟩
abbrev S128x7x1 : Shape := ⟨3, ![128, 7, 1]⟩
abbrev S128x7x2 : Shape := ⟨3, ![128, 7, 2]⟩
abbrev S128x7x8192 : Shape := ⟨3, ![128, 7, 8192]⟩
abbrev S128x8192 : Shape := ⟨2, ![128, 8192]⟩
abbrev S128x256 : Shape := ⟨2, ![128, 256]⟩
abbrev S8192x256 : Shape := ⟨2, ![8192, 256]⟩
abbrev S2048x513 : Shape := ⟨2, ![2048, 513]⟩
abbrev S8x256 : Shape := ⟨2, ![8, 256]⟩
abbrev S8x2048 : Shape := ⟨2, ![8, 2048]⟩
abbrev S2048x256 : Shape := ⟨2, ![2048, 256]⟩
abbrev S2048x512 : Shape := ⟨2, ![2048, 512]⟩
abbrev S2048x1 : Shape := ⟨2, ![2048, 1]⟩
abbrev S256x513 : Shape := ⟨2, ![256, 513]⟩
abbrev S256x512 : Shape := ⟨2, ![256, 512]⟩
abbrev S256x1 : Shape := ⟨2, ![256, 1]⟩
abbrev S256 : Shape := ⟨1, ![256]⟩
abbrev S1x256 : Shape := ⟨2, ![1, 256]⟩
abbrev S1x2048 : Shape := ⟨2, ![1, 2048]⟩
abbrev S2048 : Shape := ⟨1, ![2048]⟩

abbrev nBuf : Space → Nat
  | .hbm => 104
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S513x512, .f32⟩
  | .hbm, ⟨2, _⟩ => ⟨S513, .f32⟩
  | .hbm, ⟨3, _⟩ => ⟨S127x513, .f32⟩
  | .hbm, ⟨4, _⟩ => ⟨S32768x513, .f32⟩
  | .hbm, ⟨5, _⟩ => ⟨S32768, .f32⟩
  | .hbm, ⟨6, _⟩ => ⟨S128x7, .i32⟩
  | .hbm, ⟨7, _⟩ => ⟨S128x7, .i32⟩
  | .hbm, ⟨8, _⟩ => ⟨S512x513, .f32⟩
  | .hbm, ⟨9, _⟩ => ⟨S8192x513, .f32⟩
  | .hbm, ⟨10, _⟩ => ⟨S1x513, .f32⟩
  | .hbm, ⟨11, _⟩ => ⟨S8192x513, .f32⟩
  | .hbm, ⟨12, _⟩ => ⟨S8192x513, .f32⟩
  | .hbm, ⟨13, _⟩ => ⟨S_, .f32⟩
  | .hbm, ⟨14, _⟩ => ⟨S8192x513, .f32⟩
  | .hbm, ⟨15, _⟩ => ⟨S8192x513, .f32⟩
  | .hbm, ⟨16, _⟩ => ⟨S8192x513, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x513, .f32⟩
  | .hbm, ⟨25, _⟩ => ⟨S8192x513, .f32⟩
  | .hbm, ⟨26, _⟩ => ⟨S127x513, .f32⟩
  | .hbm, ⟨27, _⟩ => ⟨S_, .f32⟩
  | .hbm, ⟨28, _⟩ => ⟨S127, .f32⟩
  | .hbm, ⟨29, _⟩ => ⟨S127x1, .f32⟩
  | .hbm, ⟨30, _⟩ => ⟨S127x1, .f32⟩
  | .hbm, ⟨31, _⟩ => ⟨S_, .f32⟩
  | .hbm, ⟨32, _⟩ => ⟨S127x1, .f32⟩
  | .hbm, ⟨33, _⟩ => ⟨S127x1, .f32⟩
  | .hbm, ⟨34, _⟩ => ⟨S127x513, .f32⟩
  | .hbm, ⟨35, _⟩ => ⟨S127x513, .f32⟩
  | .hbm, ⟨36, _⟩ => ⟨S513x127, .f32⟩
  | .hbm, ⟨37, _⟩ => ⟨S8192x127, .f32⟩
  | .hbm, ⟨38, _⟩ => ⟨S_, .f32⟩
  | .hbm, ⟨39, _⟩ => ⟨S8192x127, .f32⟩
  | .hbm, ⟨40, _⟩ => ⟨S8192x127, .f32⟩
  | .hbm, ⟨41, _⟩ => ⟨S_, .f32⟩
  | .hbm, ⟨42, _⟩ => ⟨S8192x127, .f32⟩
  | .hbm, ⟨43, _⟩ => ⟨S8192x127, .f32⟩
  | .hbm, ⟨44, _⟩ => ⟨S_, .f32⟩
  | .hbm, ⟨45, _⟩ => ⟨S8192x127, .f32⟩
  | .hbm, ⟨46, _⟩ => ⟨S8192x127, .f32⟩
  | .hbm, ⟨47, _⟩ => ⟨S127x8192, .f32⟩
  | .hbm, ⟨48, _⟩ => ⟨S127x8192, .f32⟩
  | .hbm, ⟨49, _⟩ => ⟨S1x127x8192, .f32⟩
  | .hbm, ⟨50, _⟩ => ⟨S1x127x8192, .f32⟩
  | .hbm, ⟨51, _⟩ => ⟨S2x127x8192, .f32⟩
  | .hbm, ⟨52, _⟩ => ⟨S_, .i32⟩
  | .hbm, ⟨53, _⟩ => ⟨S128x7, .i32⟩
  | .hbm, ⟨54, _⟩ => ⟨S128x7, .i1⟩
  | .hbm, ⟨55, _⟩ => ⟨S_, .i32⟩
  | .hbm, ⟨56, _⟩ => ⟨S128x7, .i32⟩
  | .hbm, ⟨57, _⟩ => ⟨S128x7, .i32⟩
  | .hbm, ⟨58, _⟩ => ⟨S128x7, .i32⟩
  | .hbm, ⟨59, _⟩ => ⟨S_, .i32⟩
  | .hbm, ⟨60, _⟩ => ⟨S128x7, .i32⟩
  | .hbm, ⟨61, _⟩ => ⟨S128x7, .i1⟩
  | .hbm, ⟨62, _⟩ => ⟨S_, .i32⟩
  | .hbm, ⟨63, _⟩ => ⟨S128x7, .i32⟩
  | .hbm, ⟨64, _⟩ => ⟨S128x7, .i32⟩
  | .hbm, ⟨65, _⟩ => ⟨S128x7, .i32⟩
  | .hbm, ⟨66, _⟩ => ⟨S128x7x1, .i32⟩
  | .hbm, ⟨67, _⟩ => ⟨S128x7x1, .i32⟩
  | .hbm, ⟨68, _⟩ => ⟨S128x7x2, .i32⟩
  | .hbm, ⟨69, _⟩ => ⟨S128x7x8192, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S128x7x8192, .f32⟩
  | .hbm, ⟨74, _⟩ => ⟨S128x7x8192, .f32⟩
  | .hbm, ⟨75, _⟩ => ⟨S_, .f32⟩
  | .hbm, ⟨76, _⟩ => ⟨S128x7x8192, .f32⟩
  | .hbm, ⟨77, _⟩ => ⟨S128x7x8192, .f32⟩
  | .hbm, ⟨78, _⟩ => ⟨S128x7x8192, .f32⟩
  | .hbm, ⟨79, _⟩ => ⟨S_, .f32⟩
  | .hbm, ⟨80, _⟩ => ⟨S128x8192, .f32⟩
  | .hbm, ⟨81, _⟩ => ⟨S128x8192, .f32⟩
  | .hbm, ⟨82, _⟩ => ⟨S128x8192, .f32⟩
  | .hbm, ⟨83, _⟩ => ⟨S_, .f32⟩
  | .hbm, ⟨84, _⟩ => ⟨S8192, .f32⟩
  | .hbm, ⟨85, _⟩ => ⟨S8192, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S8192, .f32⟩
  | .hbm, ⟨91, _⟩ => ⟨S8192, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S8192x513, .bf16⟩
  | .hbm, ⟨99, _⟩ => ⟨S32768x513, .bf16⟩
  | .hbm, ⟨100, _⟩ => ⟨S128x256, .f32⟩
  | .hbm, ⟨101, _⟩ => ⟨S8192x256, .f32⟩
  | .hbm, ⟨102, _⟩ => ⟨S8192x256, .f32⟩
  | .hbm, ⟨103, _⟩ => ⟨S8192x256, .f32⟩
  | .local _ .vmem, ⟨0, _⟩ => ⟨S2048x513, .bf16⟩
  | .local _ .vmem, ⟨1, _⟩ => ⟨S2048x513, .bf16⟩
  | .local _ .vmem, ⟨2, _⟩ => ⟨S2048x513, .bf16⟩
  | .local _ .vmem, ⟨3, _⟩ => ⟨S2048x513, .bf16⟩
  | .local _ .vmem, ⟨4, _⟩ => ⟨S8x256, .f32⟩
  | .local _ .vmem, ⟨5, _⟩ => ⟨S8x256, .f32⟩
  | .local _ .vmem, ⟨6, _⟩ => ⟨S8x2048, .f32⟩
  | .local _ .vmem, ⟨7, _⟩ => ⟨S8x2048, .f32⟩
  | .local _ .vmem, ⟨8, _⟩ => ⟨S2048x256, .f32⟩
  | .local _ .vmem, ⟨9, _⟩ => ⟨S2048x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_cst_10 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_v49 : Ref sig .tc := ⟨.hbm, 77, rfl⟩
abbrev main_v50 : Ref sig .tc := ⟨.hbm, 78, rfl⟩
abbrev main_cst_11 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_12 : Ref sig .tc := ⟨.hbm, 83, rfl⟩
abbrev main_v54 : Ref sig .tc := ⟨.hbm, 84, rfl⟩
abbrev main_v55 : Ref sig .tc := ⟨.hbm, 85, rfl⟩
abbrev main_cst_13 : Ref sig .tc := ⟨.hbm, 86, rfl⟩
abbrev main_v56 : Ref sig .tc := ⟨.hbm, 87, rfl⟩
abbrev main_cst_14 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_15 : Ref sig .tc := ⟨.hbm, 92, rfl⟩
abbrev main_v60 : Ref sig .tc := ⟨.hbm, 93, rfl⟩
abbrev main_cst_16 : Ref sig .tc := ⟨.hbm, 94, rfl⟩
abbrev main_v61 : Ref sig .tc := ⟨.hbm, 95, rfl⟩
abbrev main_cst_17 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x513 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x513 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S513x512_S512x513_1_0 : S513x512.Transposes [1, 0] S512x513
  bcast_S513_S1x513_1 : S513.BroadcastsInDim S1x513 (![1] : Fin 1 → Fin S1x513.rank)
  bcast_S1x513_S8192x513_0_1 : S1x513.BroadcastsInDim S8192x513 (![0, 1] : Fin 2 → Fin S8192x513.rank)
  bcast_S_S8192x513 : S_.BroadcastsInDim S8192x513 (![] : Fin 0 → Fin S8192x513.rank)
  reducesTo_S8192x513_S8192_d1 : S8192x513.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x513_0_1 : S8192x1.BroadcastsInDim S8192x513 (![0, 1] : Fin 2 → Fin S8192x513.rank)
  reducesTo_S127x513_S127_d1 : S127x513.ReducesTo [1] S127
  bcast_S127_S127x1_0 : S127.BroadcastsInDim S127x1 (![0] : Fin 1 → Fin S127x1.rank)
  bcast_S_S127x1 : S_.BroadcastsInDim S127x1 (![] : Fin 0 → Fin S127x1.rank)
  bcast_S127x1_S127x513_0_1 : S127x1.BroadcastsInDim S127x513 (![0, 1] : Fin 2 → Fin S127x513.rank)
  transposes_S127x513_S513x127_1_0 : S127x513.Transposes [1, 0] S513x127
  bcast_S_S8192x127 : S_.BroadcastsInDim S8192x127 (![] : Fin 0 → Fin S8192x127.rank)
  transposes_S8192x127_S127x8192_1_0 : S8192x127.Transposes [1, 0] S127x8192
  bcast_S127x8192_S1x127x8192_1_2 : S127x8192.BroadcastsInDim S1x127x8192 (![1, 2] : Fin 2 → Fin S1x127x8192.rank)
  concatenates_S1x127x8192_S1x127x8192_S2x127x8192_d0 : Shape.Concatenates [S1x127x8192, S1x127x8192] S2x127x8192 0
  bcast_S_S128x7 : S_.BroadcastsInDim S128x7 (![] : Fin 0 → Fin S128x7.rank)
  bcast_S128x7_S128x7x1_0_1 : S128x7.BroadcastsInDim S128x7x1 (![0, 1] : Fin 2 → Fin S128x7x1.rank)
  concatenates_S128x7x1_S128x7x1_S128x7x2_d2 : Shape.Concatenates [S128x7x1, S128x7x1] S128x7x2 2
  bcast_S_S128x7x8192 : S_.BroadcastsInDim S128x7x8192 (![] : Fin 0 → Fin S128x7x8192.rank)
  reducesTo_S128x7x8192_S128x8192_d1 : S128x7x8192.ReducesTo [1] S128x8192
  reducesTo_S128x8192_S8192_d0 : S128x8192.ReducesTo [0] S8192
  bcast_S_S8192 : S_.BroadcastsInDim S8192 (![] : Fin 0 → Fin S8192.rank)
  reducesTo_S8192_S_d0 : S8192.ReducesTo [0] S_
  bitsLt_bf16_f32 : FTy.bits .bf16 < FTy.bits .f32
  shapeCasts_S32768_S128x256 : S32768.ShapeCasts S128x256
  inb_S2048x256_S2048x256_0_0 : ∀ a, (![0, 0] : Fin 2 → Nat) a + S2048x256.size a ≤ S2048x256.size a
  h_S2048x256 : 0 < S2048x256.numel
  inb_S2048x513_S2048x513_0_0 : ∀ a, (![0, 0] : Fin 2 → Nat) a + S2048x513.size a ≤ S2048x513.size a
  h_S2048x513 : 0 < S2048x513.numel
  shapeCasts_S2048x513_S2048x513 : S2048x513.ShapeCasts S2048x513
  slices_S2048x513_o0_0_S2048x512 : S2048x513.Slices ![0, 0] S2048x512
  slices_S2048x513_o0_512_S2048x1 : S2048x513.Slices ![0, 512] S2048x1
  inb_S2048x513_S256x513_0_0 : ∀ a, (![0, 0] : Fin 2 → Nat) a + S256x513.size a ≤ S2048x513.size a
  h_S256x513 : 0 < S256x513.numel
  shapeCasts_S256x513_S256x513 : S256x513.ShapeCasts S256x513
  slices_S256x513_o0_0_S256x512 : S256x513.Slices ![0, 0] S256x512
  slices_S256x513_o0_512_S256x1 : S256x513.Slices ![0, 512] S256x1
  shapeCasts_S256x1_S256 : S256x1.ShapeCasts S256
  shapeCasts_S256_S1x256 : S256.ShapeCasts S1x256
  broadcasts_S2048x1_S2048x256 : S2048x1.Broadcasts S2048x256
  broadcasts_S1x256_S2048x256 : S1x256.Broadcasts S2048x256
  inb_S8x256_S1x256_0_0 : ∀ a, (![0, 0] : Fin 2 → Nat) a + S1x256.size a ≤ S8x256.size a
  h_S1x256 : 0 < S1x256.numel
  shapeCasts_S1x256_S256 : S1x256.ShapeCasts S256
  inb_S8x2048_S1x2048_0_0 : ∀ a, (![0, 0] : Fin 2 → Nat) a + S1x2048.size a ≤ S8x2048.size a
  h_S1x2048 : 0 < S1x2048.numel
  shapeCasts_S1x2048_S2048 : S1x2048.ShapeCasts S2048
  shapeCasts_S2048x256_S2048x256 : S2048x256.ShapeCasts S2048x256
  shapeCasts_S2048_S2048x1 : S2048.ShapeCasts S2048x1
  inb_S2048x513_S256x513_256_0 : ∀ a, (![256, 0] : Fin 2 → Nat) a + S256x513.size a ≤ S2048x513.size a
  inb_S8x256_S1x256_1_0 : ∀ a, (![1, 0] : Fin 2 → Nat) a + S1x256.size a ≤ S8x256.size a
  inb_S8x2048_S1x2048_1_0 : ∀ a, (![1, 0] : Fin 2 → Nat) a + S1x2048.size a ≤ S8x2048.size a
  inb_S2048x513_S256x513_512_0 : ∀ a, (![512, 0] : Fin 2 → Nat) a + S256x513.size a ≤ S2048x513.size a
  inb_S8x256_S1x256_2_0 : ∀ a, (![2, 0] : Fin 2 → Nat) a + S1x256.size a ≤ S8x256.size a
  inb_S8x2048_S1x2048_2_0 : ∀ a, (![2, 0] : Fin 2 → Nat) a + S1x2048.size a ≤ S8x2048.size a
  inb_S2048x513_S256x513_768_0 : ∀ a, (![768, 0] : Fin 2 → Nat) a + S256x513.size a ≤ S2048x513.size a
  inb_S8x256_S1x256_3_0 : ∀ a, (![3, 0] : Fin 2 → Nat) a + S1x256.size a ≤ S8x256.size a
  inb_S8x2048_S1x2048_3_0 : ∀ a, (![3, 0] : Fin 2 → Nat) a + S1x2048.size a ≤ S8x2048.size a
  inb_S2048x513_S256x513_1024_0 : ∀ a, (![1024, 0] : Fin 2 → Nat) a + S256x513.size a ≤ S2048x513.size a
  inb_S8x256_S1x256_4_0 : ∀ a, (![4, 0] : Fin 2 → Nat) a + S1x256.size a ≤ S8x256.size a
  inb_S8x2048_S1x2048_4_0 : ∀ a, (![4, 0] : Fin 2 → Nat) a + S1x2048.size a ≤ S8x2048.size a
  inb_S2048x513_S256x513_1280_0 : ∀ a, (![1280, 0] : Fin 2 → Nat) a + S256x513.size a ≤ S2048x513.size a
  inb_S8x256_S1x256_5_0 : ∀ a, (![5, 0] : Fin 2 → Nat) a + S1x256.size a ≤ S8x256.size a
  inb_S8x2048_S1x2048_5_0 : ∀ a, (![5, 0] : Fin 2 → Nat) a + S1x2048.size a ≤ S8x2048.size a
  inb_S2048x513_S256x513_1536_0 : ∀ a, (![1536, 0] : Fin 2 → Nat) a + S256x513.size a ≤ S2048x513.size a
  inb_S8x256_S1x256_6_0 : ∀ a, (![6, 0] : Fin 2 → Nat) a + S1x256.size a ≤ S8x256.size a
  inb_S8x2048_S1x2048_6_0 : ∀ a, (![6, 0] : Fin 2 → Nat) a + S1x2048.size a ≤ S8x2048.size a
  inb_S2048x513_S256x513_1792_0 : ∀ a, (![1792, 0] : Fin 2 → Nat) a + S256x513.size a ≤ S2048x513.size a
  inb_S8x256_S1x256_7_0 : ∀ a, (![7, 0] : Fin 2 → Nat) a + S1x256.size a ≤ S8x256.size a
  inb_S8x2048_S1x2048_7_0 : ∀ a, (![7, 0] : Fin 2 → Nat) a + S1x2048.size a ≤ S8x2048.size a
  bcast_S_S8192x256 : S_.BroadcastsInDim S8192x256 (![] : Fin 0 → Fin S8192x256.rank)
  dot_S8192x512_S512x513_S8192x513_1_0_0_1_n_n_wf : DotDims.WF S8192x512 S512x513 S8192x513 [1] [0] [0] [1] [] []
  dot_S8192x513_S513x127_S8192x127_1_0_0_1_n_n_wf : DotDims.WF S8192x513 S513x127 S8192x127 [1] [0] [0] [1] [] []
  gather_S2x127x8192_S128x7x2_S128x7x8192_2_01_n_n_01_2_118192_wf : GatherDims.WF S2x127x8192 S128x7x2 S128x7x8192 [2] [0, 1] [] [0, 1] [] 2 ![1, 1, 8192]
  dot_S2048x512_S256x512_S2048x256_1_1_0_0_n_n_wf : DotDims.WF S2048x512 S256x512 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x513.size a ≤ S8192x513.size a
  hwx0_0 : ∀ i : grid0.Coords, EltTy.bits .bf16 = 32 ∨ (Rect.block (s := S8192x513) S2048x513.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x513.size a ≤ S32768x513.size a
  hwx0_1 : ∀ i : grid0.Coords, EltTy.bits .bf16 = 32 ∨ (Rect.block (s := S32768x513) S2048x513.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S128x256.size a
  hwx0_2 : ∀ i : grid0.Coords, EltTy.bits .f32 = 32 ∨ (Rect.block (s := S128x256) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x2048.size a ≤ S128x8192.size a
  hwx0_3 : ∀ i : grid0.Coords, EltTy.bits .f32 = 32 ∨ (Rect.block (s := S128x8192) S8x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S8192x256.size a
  hwx0_4 : ∀ i : grid0.Coords, EltTy.bits .f32 = 32 ∨ (Rect.block (s := S8192x256) S2048x256.size (cc0_transform_4 i) (hinb0_4 i)).WholeWords (EltTy.packing .f32)

variable [Facts₀]

def dot_S8192x512_S512x513_S8192x513_1_0_0_1_n_n : DotDims S8192x512 S512x513 S8192x513 where
  lhsContracting := [1]
  rhsContracting := [0]
  lhsNonContracting := [0]
  rhsNonContracting := [1]
  lhsBatch := []
  rhsBatch := []
  wf := dot_S8192x512_S512x513_S8192x513_1_0_0_1_n_n_wf
def dot_S8192x513_S513x127_S8192x127_1_0_0_1_n_n : DotDims S8192x513 S513x127 S8192x127 where
  lhsContracting := [1]
  rhsContracting := [0]
  lhsNonContracting := [0]
  rhsNonContracting := [1]
  lhsBatch := []
  rhsBatch := []
  wf := dot_S8192x513_S513x127_S8192x127_1_0_0_1_n_n_wf
def gather_S2x127x8192_S128x7x2_S128x7x8192_2_01_n_n_01_2_118192 : GatherDims S2x127x8192 S128x7x2 S128x7x8192 where
  offsetDims := [2]
  collapsedSliceDims := [0, 1]
  operandBatchingDims := []
  startIndicesBatchingDims := []
  startIndexMap := [0, 1]
  indexVectorDim := 2
  sliceSizes := ![1, 1, 8192]
  wf := gather_S2x127x8192_S128x7x2_S128x7x8192_2_01_n_n_01_2_118192_wf
def dot_S2048x512_S256x512_S2048x256_1_1_0_0_n_n : DotDims S2048x512 S256x512 S2048x256 where
  lhsContracting := [1]
  rhsContracting := [1]
  lhsNonContracting := [0]
  rhsNonContracting := [0]
  lhsBatch := []
  rhsBatch := []
  wf := dot_S2048x512_S256x512_S2048x256_1_1_0_0_n_n_wf

abbrev win0_0 : Pipeline.Window sig grid0 :=
  Pipeline.Window.ofSpec (Memref.whole main_v63) S2048x513.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v64) S2048x513.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v65) S8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v52) S8x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v66) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S513x512 : Shape := ⟨2, ![513, 512]⟩
abbrev S513 : Shape := ⟨1, ![513]⟩
abbrev S127x513 : Shape := ⟨2, ![127, 513]⟩
abbrev S32768x513 : Shape := ⟨2, ![32768, 513]⟩
abbrev S32768 : Shape := ⟨1, ![32768]⟩
abbrev S128x7 : Shape := ⟨2, ![128, 7]⟩
abbrev S512x513 : Shape := ⟨2, ![512, 513]⟩
abbrev S8192x513 : Shape := ⟨2, ![8192, 513]⟩
abbrev S1x513 : Shape := ⟨2, ![1, 513]⟩
abbrev S_ : Shape := ⟨0, ![]⟩
abbrev S8192 : Shape := ⟨1, ![8192]⟩
abbrev S8192x1 : Shape := ⟨2, ![8192, 1]⟩
abbrev S127 : Shape := ⟨1, ![127]⟩
abbrev S127x1 : Shape := ⟨2, ![127, 1]⟩
abbrev S513x127 : Shape := ⟨2, ![513, 127]⟩
abbrev S8192x127 : Shape := ⟨2, ![8192, 127]⟩
abbrev S127x8192 : Shape := ⟨2, ![127, 8192]⟩
abbrev S1x127x8192 : Shape := ⟨3, ![1, 127, 8192]⟩
abbrev S2x127x8192 : Shape := ⟨3, ![2, 127, 8192]⟩
abbrev S128x7x1 : Shape := ⟨3, ![128, 7, 1]⟩
abbrev S128x7x2 : Shape := ⟨3, ![128, 7, 2]⟩
abbrev S128x7x8192 : Shape := ⟨3, ![128, 7, 8192]⟩
abbrev S128x8192 : Shape := ⟨2, ![128, 8192]⟩
abbrev S513x32768 : Shape := ⟨2, ![513, 32768]⟩
abbrev S8192x32768 : Shape := ⟨2, ![8192, 32768]⟩
abbrev S1x32768 : Shape := ⟨2, ![1, 32768]⟩
abbrev S8192x128x256 : Shape := ⟨3, ![8192, 128, 256]⟩
abbrev S8192x128 : Shape := ⟨2, ![8192, 128]⟩
abbrev S8192x128x1 : Shape := ⟨3, ![8192, 128, 1]⟩
abbrev S8192x256 : Shape := ⟨2, ![8192, 256]⟩

abbrev nBuf : Space → Nat
  | .hbm => 112
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S513x512, .f32⟩
  | .hbm, ⟨2, _⟩ => ⟨S513, .f32⟩
  | .hbm, ⟨3, _⟩ => ⟨S127x513, .f32⟩
  | .hbm, ⟨4, _⟩ => ⟨S32768x513, .f32⟩
  | .hbm, ⟨5, _⟩ => ⟨S32768, .f32⟩
  | .hbm, ⟨6, _⟩ => ⟨S128x7, .i32⟩
  | .hbm, ⟨7, _⟩ => ⟨S128x7, .i32⟩
  | .hbm, ⟨8, _⟩ => ⟨S512x513, .f32⟩
  | .hbm, ⟨9, _⟩ => ⟨S8192x513, .f32⟩
  | .hbm, ⟨10, _⟩ => ⟨S1x513, .f32⟩
  | .hbm, ⟨11, _⟩ => ⟨S8192x513, .f32⟩
  | .hbm, ⟨12, _⟩ => ⟨S8192x513, .f32⟩
  | .hbm, ⟨13, _⟩ => ⟨S_, .f32⟩
  | .hbm, ⟨14, _⟩ => ⟨S8192x513, .f32⟩
  | .hbm, ⟨15, _⟩ => ⟨S8192x513, .f32⟩
  | .hbm, ⟨16, _⟩ => ⟨S8192x513, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x513, .f32⟩
  | .hbm, ⟨25, _⟩ => ⟨S8192x513, .f32⟩
  | .hbm, ⟨26, _⟩ => ⟨S127x513, .f32⟩
  | .hbm, ⟨27, _⟩ => ⟨S_, .f32⟩
  | .hbm, ⟨28, _⟩ => ⟨S127, .f32⟩
  | .hbm, ⟨29, _⟩ => ⟨S127x1, .f32⟩
  | .hbm, ⟨30, _⟩ => ⟨S127x1, .f32⟩
  | .hbm, ⟨31, _⟩ => ⟨S_, .f32⟩
  | .hbm, ⟨32, _⟩ => ⟨S127x1, .f32⟩
  | .hbm, ⟨33, _⟩ => ⟨S127x1, .f32⟩
  | .hbm, ⟨34, _⟩ => ⟨S127x513, .f32⟩
  | .hbm, ⟨35, _⟩ => ⟨S127x513, .f32⟩
  | .hbm, ⟨36, _⟩ => ⟨S513x127, .f32⟩
  | .hbm, ⟨37, _⟩ => ⟨S8192x127, .f32⟩
  | .hbm, ⟨38, _⟩ => ⟨S_, .f32⟩
  | .hbm, ⟨39, _⟩ => ⟨S8192x127, .f32⟩
  | .hbm, ⟨40, _⟩ => ⟨S8192x127, .f32⟩
  | .hbm, ⟨41, _⟩ => ⟨S_, .f32⟩
  | .hbm, ⟨42, _⟩ => ⟨S8192x127, .f32⟩
  | .hbm, ⟨43, _⟩ => ⟨S8192x127, .f32⟩
  | .hbm, ⟨44, _⟩ => ⟨S_, .f32⟩
  | .hbm, ⟨45, _⟩ => ⟨S8192x127, .f32⟩
  | .hbm, ⟨46, _⟩ => ⟨S8192x127, .f32⟩
  | .hbm, ⟨47, _⟩ => ⟨S127x8192, .f32⟩
  | .hbm, ⟨48, _⟩ => ⟨S127x8192, .f32⟩
  | .hbm, ⟨49, _⟩ => ⟨S1x127x8192, .f32⟩
  | .hbm, ⟨50, _⟩ => ⟨S1x127x8192, .f32⟩
  | .hbm, ⟨51, _⟩ => ⟨S2x127x8192, .f32⟩
  | .hbm, ⟨52, _⟩ => ⟨S_, .i32⟩
  | .hbm, ⟨53, _⟩ => ⟨S128x7, .i32⟩
  | .hbm, ⟨54, _⟩ => ⟨S128x7, .i1⟩
  | .hbm, ⟨55, _⟩ => ⟨S_, .i32⟩
  | .hbm, ⟨56, _⟩ => ⟨S128x7, .i32⟩
  | .hbm, ⟨57, _⟩ => ⟨S128x7, .i32⟩
  | .hbm, ⟨58, _⟩ => ⟨S128x7, .i32⟩
  | .hbm, ⟨59, _⟩ => ⟨S_, .i32⟩
  | .hbm, ⟨60, _⟩ => ⟨S128x7, .i32⟩
  | .hbm, ⟨61, _⟩ => ⟨S128x7, .i1⟩
  | .hbm, ⟨62, _⟩ => ⟨S_, .i32⟩
  | .hbm, ⟨63, _⟩ => ⟨S128x7, .i32⟩
  | .hbm, ⟨64, _⟩ => ⟨S128x7, .i32⟩
  | .hbm, ⟨65, _⟩ => ⟨S128x7, .i32⟩
  | .hbm, ⟨66, _⟩ => ⟨S128x7x1, .i32⟩
  | .hbm, ⟨67, _⟩ => ⟨S128x7x1, .i32⟩
  | .hbm, ⟨68, _⟩ => ⟨S128x7x2, .i32⟩
  | .hbm, ⟨69, _⟩ => ⟨S128x7x8192, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S128x7x8192, .f32⟩
  | .hbm, ⟨74, _⟩ => ⟨S128x7x8192, .f32⟩
  | .hbm, ⟨75, _⟩ => ⟨S_, .f32⟩
  | .hbm, ⟨76, _⟩ => ⟨S128x7x8192, .f32⟩
  | .hbm, ⟨77, _⟩ => ⟨S128x7x8192, .f32⟩
  | .hbm, ⟨78, _⟩ => ⟨S128x7x8192, .f32⟩
  | .hbm, ⟨79, _⟩ => ⟨S_, .f32⟩
  | .hbm, ⟨80, _⟩ => ⟨S128x8192, .f32⟩
  | .hbm, ⟨81, _⟩ => ⟨S128x8192, .f32⟩
  | .hbm, ⟨82, _⟩ => ⟨S128x8192, .f32⟩
  | .hbm, ⟨83, _⟩ => ⟨S_, .f32⟩
  | .hbm, ⟨84, _⟩ => ⟨S8192, .f32⟩
  | .hbm, ⟨85, _⟩ => ⟨S8192, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S8192, .f32⟩
  | .hbm, ⟨91, _⟩ => ⟨S8192, .f32⟩
  | .hbm, ⟨92, _⟩ => ⟨S513x32768, .f32⟩
  | .hbm, ⟨93, _⟩ => ⟨S8192x32768, .f32⟩
  | .hbm, ⟨94, _⟩ => ⟨S1x32768, .f32⟩
  | .hbm, ⟨95, _⟩ => ⟨S8192x32768, .f32⟩
  | .hbm, ⟨96, _⟩ => ⟨S8192x32768, .f32⟩
  | .hbm, ⟨97, _⟩ => ⟨S8192x128x256, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S8192x128x256, .f32⟩
  | .hbm, ⟨105, _⟩ => ⟨S8192x128x256, .f32⟩
  | .hbm, ⟨106, _⟩ => ⟨S8192x128, .f32⟩
  | .hbm, ⟨107, _⟩ => ⟨S8192x128x1, .f32⟩
  | .hbm, ⟨108, _⟩ => ⟨S8192x128x256, .f32⟩
  | .hbm, ⟨109, _⟩ => ⟨S8192x128x256, .f32⟩
  | .hbm, ⟨110, _⟩ => ⟨S_, .f32⟩
  | .hbm, ⟨111, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_cst_10 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_v49 : Ref sig .tc := ⟨.hbm, 77, rfl⟩
abbrev main_v50 : Ref sig .tc := ⟨.hbm, 78, rfl⟩
abbrev main_cst_11 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_12 : Ref sig .tc := ⟨.hbm, 83, rfl⟩
abbrev main_v54 : Ref sig .tc := ⟨.hbm, 84, rfl⟩
abbrev main_v55 : Ref sig .tc := ⟨.hbm, 85, rfl⟩
abbrev main_cst_13 : Ref sig .tc := ⟨.hbm, 86, rfl⟩
abbrev main_v56 : Ref sig .tc := ⟨.hbm, 87, rfl⟩
abbrev main_cst_14 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_15 : Ref sig .tc := ⟨.hbm, 98, rfl⟩
abbrev main_v66 : Ref sig .tc := ⟨.hbm, 99, rfl⟩
abbrev main_cst_16 : Ref sig .tc := ⟨.hbm, 100, rfl⟩
abbrev main_v67 : Ref sig .tc := ⟨.hbm, 101, rfl⟩
abbrev main_cst_17 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_18 : Ref sig .tc := ⟨.hbm, 110, rfl⟩
abbrev main_v75 : Ref sig .tc := ⟨.hbm, 111, rfl⟩

abbrev nD : Nat := 1
abbrev τ : Topo := Topo.v7x

variable {F : FTy → Type} [FloatOps F]

class Facts₀ : Prop where
  transposes_S513x512_S512x513_1_0 : S513x512.Transposes [1, 0] S512x513
  bcast_S513_S1x513_1 : S513.BroadcastsInDim S1x513 (![1] : Fin 1 → Fin S1x513.rank)
  bcast_S1x513_S8192x513_0_1 : S1x513.BroadcastsInDim S8192x513 (![0, 1] : Fin 2 → Fin S8192x513.rank)
  bcast_S_S8192x513 : S_.BroadcastsInDim S8192x513 (![] : Fin 0 → Fin S8192x513.rank)
  reducesTo_S8192x513_S8192_d1 : S8192x513.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x513_0_1 : S8192x1.BroadcastsInDim S8192x513 (![0, 1] : Fin 2 → Fin S8192x513.rank)
  reducesTo_S127x513_S127_d1 : S127x513.ReducesTo [1] S127
  bcast_S127_S127x1_0 : S127.BroadcastsInDim S127x1 (![0] : Fin 1 → Fin S127x1.rank)
  bcast_S_S127x1 : S_.BroadcastsInDim S127x1 (![] : Fin 0 → Fin S127x1.rank)
  bcast_S127x1_S127x513_0_1 : S127x1.BroadcastsInDim S127x513 (![0, 1] : Fin 2 → Fin S127x513.rank)
  transposes_S127x513_S513x127_1_0 : S127x513.Transposes [1, 0] S513x127
  bcast_S_S8192x127 : S_.BroadcastsInDim S8192x127 (![] : Fin 0 → Fin S8192x127.rank)
  transposes_S8192x127_S127x8192_1_0 : S8192x127.Transposes [1, 0] S127x8192
  bcast_S127x8192_S1x127x8192_1_2 : S127x8192.BroadcastsInDim S1x127x8192 (![1, 2] : Fin 2 → Fin S1x127x8192.rank)
  concatenates_S1x127x8192_S1x127x8192_S2x127x8192_d0 : Shape.Concatenates [S1x127x8192, S1x127x8192] S2x127x8192 0
  bcast_S_S128x7 : S_.BroadcastsInDim S128x7 (![] : Fin 0 → Fin S128x7.rank)
  bcast_S128x7_S128x7x1_0_1 : S128x7.BroadcastsInDim S128x7x1 (![0, 1] : Fin 2 → Fin S128x7x1.rank)
  concatenates_S128x7x1_S128x7x1_S128x7x2_d2 : Shape.Concatenates [S128x7x1, S128x7x1] S128x7x2 2
  bcast_S_S128x7x8192 : S_.BroadcastsInDim S128x7x8192 (![] : Fin 0 → Fin S128x7x8192.rank)
  reducesTo_S128x7x8192_S128x8192_d1 : S128x7x8192.ReducesTo [1] S128x8192
  reducesTo_S128x8192_S8192_d0 : S128x8192.ReducesTo [0] S8192
  bcast_S_S8192 : S_.BroadcastsInDim S8192 (![] : Fin 0 → Fin S8192.rank)
  transposes_S32768x513_S513x32768_1_0 : S32768x513.Transposes [1, 0] S513x32768
  bcast_S32768_S1x32768_1 : S32768.BroadcastsInDim S1x32768 (![1] : Fin 1 → Fin S1x32768.rank)
  bcast_S1x32768_S8192x32768_0_1 : S1x32768.BroadcastsInDim S8192x32768 (![0, 1] : Fin 2 → Fin S8192x32768.rank)
  shapeCasts_S8192x32768_S8192x128x256 : S8192x32768.ShapeCasts S8192x128x256
  reducesTo_S8192_S_d0 : S8192.ReducesTo [0] S_
  bcast_S_S8192x128x256 : S_.BroadcastsInDim S8192x128x256 (![] : Fin 0 → Fin S8192x128x256.rank)
  transposes_S128x8192_S8192x128_1_0 : S128x8192.Transposes [1, 0] S8192x128
  bcast_S8192x128_S8192x128x1_0_1 : S8192x128.BroadcastsInDim S8192x128x1 (![0, 1] : Fin 2 → Fin S8192x128x1.rank)
  bcast_S8192x128x1_S8192x128x256_0_1_2 : S8192x128x1.BroadcastsInDim S8192x128x256 (![0, 1, 2] : Fin 3 → Fin S8192x128x256.rank)
  reducesTo_S8192x128x256_S8192x256_d1 : S8192x128x256.ReducesTo [1] S8192x256
  dot_S8192x512_S512x513_S8192x513_1_0_0_1_n_n_wf : DotDims.WF S8192x512 S512x513 S8192x513 [1] [0] [0] [1] [] []
  dot_S8192x513_S513x127_S8192x127_1_0_0_1_n_n_wf : DotDims.WF S8192x513 S513x127 S8192x127 [1] [0] [0] [1] [] []
  gather_S2x127x8192_S128x7x2_S128x7x8192_2_01_n_n_01_2_118192_wf : GatherDims.WF S2x127x8192 S128x7x2 S128x7x8192 [2] [0, 1] [] [0, 1] [] 2 ![1, 1, 8192]
  dot_S8192x513_S513x32768_S8192x32768_1_0_0_1_n_n_wf : DotDims.WF S8192x513 S513x32768 S8192x32768 [1] [0] [0] [1] [] []

variable [Facts₀]

def dot_S8192x512_S512x513_S8192x513_1_0_0_1_n_n : DotDims S8192x512 S512x513 S8192x513 where
  lhsContracting := [1]
  rhsContracting := [0]
  lhsNonContracting := [0]
  rhsNonContracting := [1]
  lhsBatch := []
  rhsBatch := []
  wf := dot_S8192x512_S512x513_S8192x513_1_0_0_1_n_n_wf
def dot_S8192x513_S513x127_S8192x127_1_0_0_1_n_n : DotDims S8192x513 S513x127 S8192x127 where
  lhsContracting := [1]
  rhsContracting := [0]
  lhsNonContracting := [0]
  rhsNonContracting := [1]
  lhsBatch := []
  rhsBatch := []
  wf := dot_S8192x513_S513x127_S8192x127_1_0_0_1_n_n_wf
def gather_S2x127x8192_S128x7x2_S128x7x8192_2_01_n_n_01_2_118192 : GatherDims S2x127x8192 S128x7x2 S128x7x8192 where
  offsetDims := [2]
  collapsedSliceDims := [0, 1]
  operandBatchingDims := []
  startIndicesBatchingDims := []
  startIndexMap := [0, 1]
  indexVectorDim := 2
  sliceSizes := ![1, 1, 8192]
  wf := gather_S2x127x8192_S128x7x2_S128x7x8192_2_01_n_n_01_2_118192_wf
def dot_S8192x513_S513x32768_S8192x32768_1_0_0_1_n_n : DotDims S8192x513 S513x32768 S8192x32768 where
  lhsContracting := [1]
  rhsContracting := [0]
  lhsNonContracting := [0]
  rhsNonContracting := [1]
  lhsBatch := []
  rhsBatch := []
  wf := dot_S8192x513_S513x32768_S8192x32768_1_0_0_1_n_n_wf

class Facts : Prop extends Facts₀ where

variable [Facts]
-- ==== Proof.RefFoldLeafw.lean ====
/-
  The reference's operations, folded over the launch contents, leave in the per-row leaf-weight buffer the stage the
  read module names for it: the cosine routing, the gathered route probabilities, the clipped logarithms summed
  along each route, the exponential — each operation's result at its own buffer, every other buffer untouched.
-/
import proofs.«131044_j66254165508708_2_alg».proof.Proof.RefRun
import proofs.«131044_j66254165508708_2_alg».proof.Proof.RefRead
import Idealize.ShloMosaic.Lib.StableHlo.Run
import Idealize.ShloMosaic.Lib.Tactic

noncomputable section

open Idealize.ShloMosaic Idealize.ShloMosaic.TcCoe Idealize.SL.Sem Idealize.ShloMosaic.StableHlo

namespace Cert.RefFold

open Cert.ReferenceIdeal Cert.ReferenceIdeal.Gen Cert.ReferenceIdeal.Value Cert.ReferenceIdeal.Read

variable (m : (ℓ : Loc nD τ sig) → Buf (Elt Ideal) ℓ)

set_option maxHeartbeats 8000000 in
/-- After all the operations the leaf-weight buffer holds the leaf-weight stage of the arguments. -/
theorem fold_v52 (c : Dev nD) :
    after (ops (F := Ideal)) (launchContents m c) (Proc.devRef .tc main_v52)
      = val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  after_results_simp
  rfl

end Cert.RefFold

end
-- ==== Proof.RefFoldScale.lean ====
/-
  The reference's operations, folded over the launch contents, leave in the scale's buffer the stage the read module
  names for it: one plus the batch mean of the routing entropies over the maximal entropy.
-/
import proofs.«131044_j66254165508708_2_alg».proof.Proof.RefRun
import proofs.«131044_j66254165508708_2_alg».proof.Proof.RefRead
import Idealize.ShloMosaic.Lib.StableHlo.Run
import Idealize.ShloMosaic.Lib.Tactic

noncomputable section

open Idealize.ShloMosaic Idealize.ShloMosaic.TcCoe Idealize.SL.Sem Idealize.ShloMosaic.StableHlo

namespace Cert.RefFold

open Cert.ReferenceIdeal Cert.ReferenceIdeal.Gen Cert.ReferenceIdeal.Value Cert.ReferenceIdeal.Read

variable (m : (ℓ : Loc nD τ sig) → Buf (Elt Ideal) ℓ)

set_option maxHeartbeats 8000000 in
/-- After all the operations the scale's buffer holds the scale stage of the arguments. -/
theorem fold_v68 (c : Dev nD) :
    after (ops (F := Ideal)) (launchContents m c) (Proc.devRef .tc main_v68)
      = val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  after_results_simp
  rfl

end Cert.RefFold

end
-- ==== Proof.RefFold.lean ====
/-
  The reference's run ends with its result buffer at the last stage of the read module.

  The run's post names the result as the fold of the operations' results over the launch contents.  That fold, opened,
  is one large term in which three sub-results recur: the features, the per-row leaf weights and the scale.  Each of
  the three is identified with its stage separately; with those in place what remains are the last few operations
  (the leaf matrix product, the bias, the reshape, the two products and the sum over leaves), which are the last
  stage's own definition.
-/
import proofs.«131044_j66254165508708_2_alg».proof.Proof.RefRun
import proofs.«131044_j66254165508708_2_alg».proof.Proof.RefRead
import proofs.«131044_j66254165508708_2_alg».proof.Proof.RefFoldLeafw
import proofs.«131044_j66254165508708_2_alg».proof.Proof.RefFoldScale
import Idealize.ShloMosaic.Lib.StableHlo.Run
import Idealize.ShloMosaic.Lib.Tactic

noncomputable section

open Idealize.ShloMosaic Idealize.ShloMosaic.TcCoe Idealize.SL.Sem Idealize.ShloMosaic.StableHlo

namespace Cert.RefFold

open Cert.ReferenceIdeal Cert.ReferenceIdeal.Gen Cert.ReferenceIdeal.Value Cert.ReferenceIdeal.Read

variable (m : (ℓ : Loc nD τ sig) → Buf (Elt Ideal) ℓ)

set_option maxHeartbeats 4000000 in
/-- After all the operations the feature buffer holds the feature stage of the arguments. -/
theorem fold_v5 (c : Dev nD) :
    after (ops (F := Ideal)) (launchContents m c) (Proc.devRef .tc main_v5)
      = val_main_v5 (F := Ideal) (m ((c.tc : Thread nD τ).loc main_arg0)) (m ((c.tc : Thread nD τ).loc main_arg1)) (m ((c.tc : Thread nD τ).loc main_arg2)) := by
  after_results_simp
  rfl

set_option maxHeartbeats 8000000 in
/-- After all the operations the result buffer holds the last stage of the arguments. -/
theorem fold_v75 (c : Dev nD) :
    after (ops (F := Ideal)) (launchContents m c) (Proc.devRef .tc main_v75)
      = val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have e5 := fold_v5 m c
  have e52 := fold_v52 m c
  have e68 := fold_v68 m c
  simp (disch := decide) only [after_cons, after_nil, nullary_result', unary_result', binary_result', ternary_result', quaternary_result', reshape_result',
    nary4_result', nary_result', unaryIndexed_result', binaryIndexed_result', nullary_result_ne', unary_result_ne', binary_result_ne',
    ternary_result_ne', quaternary_result_ne', reshape_result_ne', nary_result_ne', unaryIndexed_result_ne', binaryIndexed_result_ne'] at e5 e52 e68
  after_results_simp
  simp only [e68]
  simp only [e52]
  simp only [e5]
  rfl

end Cert.RefFold

end
-- ==== Proof.KernelBody.lean ====
/-
  What one run of the kernel body leaves in the output block, as a function on whole blocks.

  The body visits eight leaves.  For leaf `l` it loads rows `256·l … 256·l + 255` of the weight block, row `l` of
  the bias block and row `l` of the leaf-weight block, reads the output block back, and stores

      acc + ( h[:, :512] · wₗ[:, :512]ᵀ + h[:, 512] ⊗ wₗ[:, 512] + biasₗ ) * swₗ

  over the whole block.  So what the body leaves is eight such steps applied in order to what the block held
  when the body started: the zero block at the first point of a run (the body stores zeros first), and what the
  point before left at the other points.
-/
import proofs.«131044_j66254165508708_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- Reading a buffer back through the whole-block rectangle after a list of stores whose LAST one covered the
    whole block gives that store's value, whatever the earlier stores were. -/
theorem readCov_cons_unit_zero {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

/-- The zero block the body stores at the first point of a run. -/
abbrev zero : Vec F S2048x256 .f32 := broadcast S2048x256 (Scalar.ofBits .f32 0x00000000#32)

/-- Eight leaf steps, leaf 0 first, on what the output block held (`acc`): each step is the body's own arithmetic
    for one leaf (the first leaf's stored value, as a function of its loads) at that leaf's rows of the blocks. -/
def bodyVal (x0 : Vec F S2048x513 .bf16) (x1 : Vec F S2048x513 .bf16) (x2 : Vec F S8x256 .f32) (x3 : Vec F S8x2048 .f32)
    (acc : Vec F S2048x256 .f32) : Vec F S2048x256 .f32 :=
  k0_pay6 x0 (View.ld x1 (Rect.unit ![1792, 0] S256x513.size inb_S2048x513_S256x513_1792_0))
      (View.ld x2 (Rect.unit ![7, 0] S1x256.size inb_S8x256_S1x256_7_0)) (View.ld x3 (Rect.unit ![7, 0] S1x2048.size inb_S8x2048_S1x2048_7_0))
    (k0_pay6 x0 (View.ld x1 (Rect.unit ![1536, 0] S256x513.size inb_S2048x513_S256x513_1536_0))
      (View.ld x2 (Rect.unit ![6, 0] S1x256.size inb_S8x256_S1x256_6_0)) (View.ld x3 (Rect.unit ![6, 0] S1x2048.size inb_S8x2048_S1x2048_6_0))
    (k0_pay6 x0 (View.ld x1 (Rect.unit ![1280, 0] S256x513.size inb_S2048x513_S256x513_1280_0))
      (View.ld x2 (Rect.unit ![5, 0] S1x256.size inb_S8x256_S1x256_5_0)) (View.ld x3 (Rect.unit ![5, 0] S1x2048.size inb_S8x2048_S1x2048_5_0))
    (k0_pay6 x0 (View.ld x1 (Rect.unit ![1024, 0] S256x513.size inb_S2048x513_S256x513_1024_0))
      (View.ld x2 (Rect.unit ![4, 0] S1x256.size inb_S8x256_S1x256_4_0)) (View.ld x3 (Rect.unit ![4, 0] S1x2048.size inb_S8x2048_S1x2048_4_0))
    (k0_pay6 x0 (View.ld x1 (Rect.unit ![768, 0] S256x513.size inb_S2048x513_S256x513_768_0))
      (View.ld x2 (Rect.unit ![3, 0] S1x256.size inb_S8x256_S1x256_3_0)) (View.ld x3 (Rect.unit ![3, 0] S1x2048.size inb_S8x2048_S1x2048_3_0))
    (k0_pay6 x0 (View.ld x1 (Rect.unit ![512, 0] S256x513.size inb_S2048x513_S256x513_512_0))
      (View.ld x2 (Rect.unit ![2, 0] S1x256.size inb_S8x256_S1x256_2_0)) (View.ld x3 (Rect.unit ![2, 0] S1x2048.size inb_S8x2048_S1x2048_2_0))
    (k0_pay6 x0 (View.ld x1 (Rect.unit ![256, 0] S256x513.size inb_S2048x513_S256x513_256_0))
      (View.ld x2 (Rect.unit ![1, 0] S1x256.size inb_S8x256_S1x256_1_0)) (View.ld x3 (Rect.unit ![1, 0] S1x2048.size inb_S8x2048_S1x2048_1_0))
    (k0_pay6 x0 (View.ld x1 (Rect.unit ![0, 0] S256x513.size inb_S2048x513_S256x513_0_0))
      (View.ld x2 (Rect.unit ![0, 0] S1x256.size inb_S8x256_S1x256_0_0)) (View.ld x3 (Rect.unit ![0, 0] S1x2048.size inb_S8x2048_S1x2048_0_0))
    (acc))))))))

/-- At a point that continues a run the body leaves the eight steps applied to what the point before left. -/
theorem out_B (c : Dev nD) (i : grid0.Coords) (arg2 : Memref sig .tc .vmem S2048x513 .bf16) (harg2 : arg2.IsWhole) (arg3 : Memref sig .tc .vmem S2048x513 .bf16) (harg3 : arg3.IsWhole) (arg4 : Memref sig .tc .vmem S8x256 .f32) (harg4 : arg4.IsWhole) (arg5 : Memref sig .tc .vmem S8x2048 .f32) (harg5 : arg5.IsWhole) (arg6 : Memref sig .tc .vmem S2048x256 .f32) (harg6 : arg6.IsWhole) (hc0 : ¬cond0_0 i)
    (x0 : Vec F S2048x513 .bf16) (x1 : Vec F S2048x513 .bf16) (x2 : Vec F S8x256 .f32) (x3 : Vec F S8x2048 .f32) (xo4 : Vec F S2048x256 .f32) :
    out0_B_4 c i arg2 harg2 arg3 harg3 arg4 harg4 arg5 harg5 arg6 harg6 hc0 x0 x1 x2 x3 xo4 = bodyVal x0 x1 x2 x3 xo4 := by
  unfold out0_B_4
  rw [View.read_writes_eq_canon _ _ _ (cover0_B_4 c i arg2 harg2 arg3 harg3 arg4 harg4 arg5 harg5 arg6 harg6 hc0 x0 x1 x2 x3 xo4)]
  unfold kernelRun0_B
  dsimp only
  sl_unfold_words
  rw [View.canon_cons_unit_zero (S := S2048x256) hz]
  simp only [readCov_cons_unit_zero (S := S2048x256) _ hz, View.readAt_eq_ld, harg2.read_unread, harg3.read_unread, harg4.read_unread,
    harg5.read_unread, harg6.read_unread, View.ld_unit_zero (S := S2048x513) hz, View.ld_unit_zero (S := S2048x256) hz]
  rfl

/-- At the first point of a run the body stores the zero block first, so it leaves the eight steps applied to zero. -/
theorem out_A (c : Dev nD) (i : grid0.Coords) (arg2 : Memref sig .tc .vmem S2048x513 .bf16) (harg2 : arg2.IsWhole) (arg3 : Memref sig .tc .vmem S2048x513 .bf16) (harg3 : arg3.IsWhole) (arg4 : Memref sig .tc .vmem S8x256 .f32) (harg4 : arg4.IsWhole) (arg5 : Memref sig .tc .vmem S8x2048 .f32) (harg5 : arg5.IsWhole) (arg6 : Memref sig .tc .vmem S2048x256 .f32) (harg6 : arg6.IsWhole) (hc0 : cond0_0 i)
    (x0 : Vec F S2048x513 .bf16) (x1 : Vec F S2048x513 .bf16) (x2 : Vec F S8x256 .f32) (x3 : Vec F S8x2048 .f32) :
    out0_A_4 c i arg2 harg2 arg3 harg3 arg4 harg4 arg5 harg5 arg6 harg6 hc0 x0 x1 x2 x3 = bodyVal x0 x1 x2 x3 zero := by
  unfold out0_A_4
  rw [View.read_writes_eq_canon _ _ _ (cover0_A_4 c i arg2 harg2 arg3 harg3 arg4 harg4 arg5 harg5 arg6 harg6 hc0 x0 x1 x2 x3)]
  unfold kernelRun0_A
  dsimp only
  sl_unfold_words
  rw [View.canon_cons_unit_zero (S := S2048x256) hz]
  simp only [readCov_cons_unit_zero (S := S2048x256) _ hz, View.readAt_eq_ld, harg2.read_unread, harg3.read_unread, harg4.read_unread,
    harg5.read_unread, View.ld_unit_zero (S := S2048x513) hz, View.ld_unit_zero (S := S2048x256) hz]
  rfl

end Cert.KernelIdeal.Body

end
-- ==== Proof.KernelStep.lean ====
/-
  One leaf step of the kernel body read at an entry, over the extended reals.

  The step's stored block is `acc + (h₅₁₂ · w₅₁₂ᵀ + h[:,512] ⊗ w[:,512] + bias) * sw`.  At entry `(r, o)` that is

      acc[r,o] + ( Σ_{k<512} h[r,k]·w[o,k] + h[r,512]·w[o,512] + bias[0,o] ) · sw[0,r]

  — the matrix product into a zero accumulator is the plain sum over the contracted axis, a change of float format is
  the identity, and the slices, casts and broadcasts only move indices.
-/
import proofs.«131044_j66254165508708_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.KernelIdeal.Step

open Cert.KernelIdeal Cert.KernelIdeal.Gen

/-- On its free axis the left factor is read at the output row … -/
theorem lhs0 (j : S2048x256.Idx) (q : dot_S2048x512_S256x512_S2048x256_1_1_0_0_n_n.contr.Idx) : (dot_S2048x512_S256x512_S2048x256_1_1_0_0_n_n.lhsIdx j q 0).val = (j 0).val := by
  unfold DotDims.lhsIdx
  rw [dif_neg (show ¬(0 : Fin S2048x512.rank) ∈ dot_S2048x512_S256x512_S2048x256_1_1_0_0_n_n.lhsBatch by decide),
    dif_pos (show (0 : Fin S2048x512.rank) ∈ dot_S2048x512_S256x512_S2048x256_1_1_0_0_n_n.lhsNonContracting by decide)]
  rfl
/-- … and on its contracted axis at the contraction index. -/
theorem lhs1 (j : S2048x256.Idx) (q : dot_S2048x512_S256x512_S2048x256_1_1_0_0_n_n.contr.Idx) : (dot_S2048x512_S256x512_S2048x256_1_1_0_0_n_n.lhsIdx j q 1).val = (q ⟨0, by decide⟩).val :=
  dot_S2048x512_S256x512_S2048x256_1_1_0_0_n_n.lhsIdx_val_of_single rfl j q
/-- The right factor (the product is against its transpose) is read at the output COLUMN on its free axis … -/
theorem rhs0 (j : S2048x256.Idx) (q : dot_S2048x512_S256x512_S2048x256_1_1_0_0_n_n.contr.Idx) : (dot_S2048x512_S256x512_S2048x256_1_1_0_0_n_n.rhsIdx j q 0).val = (j 1).val := by
  unfold DotDims.rhsIdx
  rw [dif_neg (show ¬(0 : Fin S256x512.rank) ∈ dot_S2048x512_S256x512_S2048x256_1_1_0_0_n_n.rhsBatch by decide),
    dif_pos (show (0 : Fin S256x512.rank) ∈ dot_S2048x512_S256x512_S2048x256_1_1_0_0_n_n.rhsNonContracting by decide)]
  rfl
/-- … and at the contraction index on its contracted axis. -/
theorem rhs1 (j : S2048x256.Idx) (q : dot_S2048x512_S256x512_S2048x256_1_1_0_0_n_n.contr.Idx) : (dot_S2048x512_S256x512_S2048x256_1_1_0_0_n_n.rhsIdx j q 1).val = (q ⟨0, by decide⟩).val :=
  dot_S2048x512_S256x512_S2048x256_1_1_0_0_n_n.rhsIdx_val_of_single rfl j q

/-- The output entry `(r, o)` of the product contracts row `r` of the left factor … -/
theorem lhs_at (r : Fin 2048) (o : Fin 256) (k : Fin 512) :
    dot_S2048x512_S256x512_S2048x256_1_1_0_0_n_n.lhsIdx (ix2 r o) ((contrEquiv1 dot_S2048x512_S256x512_S2048x256_1_1_0_0_n_n 512 rfl rfl).symm k) = ix2 r k := by
  have hk := contrEquiv1_symm_val dot_S2048x512_S256x512_S2048x256_1_1_0_0_n_n 512 rfl rfl k
  exact funext fun a => Fin.ext (by
    match a with
    | ⟨0, _⟩ => exact lhs0 _ _
    | ⟨1, _⟩ => exact (lhs1 _ _).trans hk)

/-- … with row `o` of the right factor. -/
theorem rhs_at (r : Fin 2048) (o : Fin 256) (k : Fin 512) :
    dot_S2048x512_S256x512_S2048x256_1_1_0_0_n_n.rhsIdx (ix2 r o) ((contrEquiv1 dot_S2048x512_S256x512_S2048x256_1_1_0_0_n_n 512 rfl rfl).symm k) = ix2 o k := by
  have hk := contrEquiv1_symm_val dot_S2048x512_S256x512_S2048x256_1_1_0_0_n_n 512 rfl rfl k
  exact funext fun a => Fin.ext (by
    match a with
    | ⟨0, _⟩ => exact rhs0 _ _
    | ⟨1, _⟩ => exact (rhs1 _ _).trans hk)

/-- The product into the zero accumulator, at an entry: the sum over the 512 contracted features. -/
theorem matmul_at (a : FVec Ideal S2048x512 .bf16) (b : FVec Ideal S256x512 .bf16) (r : Fin 2048) (o : Fin 256) :
    matmul dot_S2048x512_S256x512_S2048x256_1_1_0_0_n_n none a b (constant S2048x256 .f32 0x00000000#32) (ix2 r o) = ∑ k : Fin 512, a (ix2 r k) * b (ix2 o k) := by
  simp only [matmul]
  rw [Ideal.matmul_constant_zero_apply, ← Equiv.sum_comp (contrEquiv1 dot_S2048x512_S256x512_S2048x256_1_1_0_0_n_n 512 rfl rfl).symm]
  refine Finset.sum_congr rfl fun k _ => ?_
  rw [lhs_at, rhs_at]

/-- The first 512 columns of a block of 513. -/
theorem slice_lo {n : Nat} (x : (⟨2, ![n, 513]⟩ : Shape).Idx → Ideal .bf16) (h : (⟨2, ![n, 513]⟩ : Shape).Slices ![0, 0] ⟨2, ![n, 512]⟩)
    (r : Fin n) (k : Fin 512) : extractStridedSlice ⟨2, ![n, 512]⟩ ![0, 0] x h (ix2 r k) = x (ix2 r (Fin.castSucc k)) :=
  extractStridedSlice_apply _ _ _ _ _ (fun ax => by
    match ax with
    | ⟨0, _⟩ => show r.val = 0 + r.val; omega
    | ⟨1, _⟩ => show k.val = 0 + k.val; omega)

/-- The last column of a block of 513. -/
theorem slice_hi {n : Nat} (x : (⟨2, ![n, 513]⟩ : Shape).Idx → Ideal .bf16) (h : (⟨2, ![n, 513]⟩ : Shape).Slices ![0, 512] ⟨2, ![n, 1]⟩)
    (r : Fin n) : extractStridedSlice ⟨2, ![n, 1]⟩ ![0, 512] x h (ix2 r (0 : Fin 1)) = x (ix2 r (Fin.last 512)) :=
  extractStridedSlice_apply _ _ _ _ _ (fun ax => by
    match ax with
    | ⟨0, _⟩ => show r.val = 0 + r.val; omega
    | ⟨1, _⟩ => show 512 = 512 + 0; rfl)

/-- A column `[a, 1]` broadcast to `[a, b]` reads its row. -/
theorem bcast_col {a b : Nat} {α : Type} (hb : b ≠ 1 ∨ True) (v : (⟨2, ![a, 1]⟩ : Shape).Idx → α) (h : (⟨2, ![a, 1]⟩ : Shape).Broadcasts ⟨2, ![a, b]⟩)
    (ha : a ≠ 1) (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    rw [if_neg ha]
  | ⟨1, _⟩ =>
    show 0 = if (1 : Nat) = 1 then 0 else q.val
    rw [if_pos rfl]

/-- A vector `[a]` cast to a column `[a, 1]` reads the vector. -/
theorem cast_col {a : Nat} {α : Type} (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by rw [Shape.rowMajor_val_one, Shape.rowMajor_val_two]; show p.val = p.val * 1 + 0; omega)

/-- A vector `[a]` cast to a row `[1, a]` reads the vector. -/
theorem cast_row {a : Nat} {α : Type} (v : (⟨1, ![a]⟩ : Shape).Idx → α) (h : (⟨1, ![a]⟩ : Shape).ShapeCasts ⟨2, ![1, a]⟩) (p : Fin a) :
    shapeCast ⟨2, ![1, a]⟩ v h (ix2 (0 : Fin 1) p) = v (ix1 p) :=
  shapeCast_apply v h _ _ (by rw [Shape.rowMajor_val_one, Shape.rowMajor_val_two]; show p.val = 0 * a + p.val; omega)

/-- A row `[1, a]` cast to a vector `[a]` reads the row. -/
theorem uncast_row {a : Nat} {α : Type} (v : (⟨2, ![1, a]⟩ : Shape).Idx → α) (h : (⟨2, ![1, a]⟩ : Shape).ShapeCasts ⟨1, ![a]⟩) (p : Fin a) :
    shapeCast ⟨1, ![a]⟩ v h (ix1 p) = v (ix2 (0 : Fin 1) p) :=
  shapeCast_apply v h _ _ (by rw [Shape.rowMajor_val_one, Shape.rowMajor_val_two]; show 0 * a + p.val = p.val; omega)

/-- A column `[a, 1]` cast to a vector `[a]` reads the column. -/
theorem uncast_col {a : Nat} {α : Type} (v : (⟨2, ![a, 1]⟩ : Shape).Idx → α) (h : (⟨2, ![a, 1]⟩ : Shape).ShapeCasts ⟨1, ![a]⟩) (p : Fin a) :
    shapeCast ⟨1, ![a]⟩ v h (ix1 p) = v (ix2 p (0 : Fin 1)) :=
  shapeCast_apply v h _ _ (by rw [Shape.rowMajor_val_one, Shape.rowMajor_val_two]; show p.val * 1 + 0 = p.val; omega)

/-- ONE LEAF STEP at entry `(r, o)`. -/
theorem step_apply (h : Vec Ideal S2048x513 .bf16) (w : Vec Ideal S256x513 .bf16) (b : Vec Ideal S1x256 .f32)
    (s : Vec Ideal S1x2048 .f32) (acc : Vec Ideal S2048x256 .f32) (r : Fin 2048) (o : Fin 256) :
    k0_pay6 (F := Ideal) h w b s acc (ix2 r o)
      = acc (ix2 r o) + (((∑ k : Fin 512, h (ix2 r (Fin.castSucc k)) * w (ix2 o (Fin.castSucc k)))
          + h (ix2 r (Fin.last 512)) * w (ix2 o (Fin.last 512))) + b (ix2 (0 : Fin 1) o)) * s (ix2 (0 : Fin 1) r) := by
  unfold k0_pay6 k0_pay5 k0_pay4 k0_pay3
  simp only [shapeCast_self]
  show acc (ix2 r o) + ((matmul (F := Ideal) dot_S2048x512_S256x512_S2048x256_1_1_0_0_n_n none _ _ _ (ix2 r o) + broadcastTo S2048x256 _ _ (ix2 r o) * broadcastTo S2048x256 _ _ (ix2 r o))
      + broadcastTo S2048x256 _ _ (ix2 r o)) * broadcastTo S2048x256 _ _ (ix2 r o) = _
  rw [matmul_at]
  rw [bcast_col (Or.inr trivial) _ _ (by decide) r o, bcast_col (Or.inr trivial) _ _ (by decide) r o,
    broadcastTo_1b_ab_apply, broadcastTo_1b_ab_apply]
  simp only [slice_lo, cast_col, cast_row, uncast_row, uncast_col, slice_hi, extf_apply]

/-- The same with the three per-leaf loads read through what is known of them: `w' q k` for the leaf's weight rows,
    `b' q` for its bias row, `s' q` for its leaf-weight row. -/
theorem step_at (h : Vec Ideal S2048x513 .bf16) (w : Vec Ideal S256x513 .bf16) (b : Vec Ideal S1x256 .f32)
    (s : Vec Ideal S1x2048 .f32) (acc : Vec Ideal S2048x256 .f32) (r : Fin 2048) (o : Fin 256)
    (w' : Fin 256 → Fin 513 → EReal) (b' : Fin 256 → EReal) (s' : Fin 2048 → EReal)
    (hw : ∀ (q : Fin 256) (k : Fin 513), w (ix2 q k) = w' q k) (hb : ∀ q : Fin 256, b (ix2 (0 : Fin 1) q) = b' q)
    (hs : ∀ q : Fin 2048, s (ix2 (0 : Fin 1) q) = s' q) :
    k0_pay6 (F := Ideal) h w b s acc (ix2 r o)
      = acc (ix2 r o) + (((∑ k : Fin 512, h (ix2 r (Fin.castSucc k)) * w' o (Fin.castSucc k))
          + h (ix2 r (Fin.last 512)) * w' o (Fin.last 512)) + b' o) * s' r := by
  rw [step_apply]
  simp only [hw, hb, hs]

end Cert.KernelIdeal.Step

end
-- ==== Proof.KernelChain.lean ====
/-
  What the output block holds after each grid point, entry by entry, over the extended reals.

  Grid point `n = 16·i + j` works on batch tile `i` (rows `2048·i …`) and leaf tile `j` (leaves `8·j … 8·j + 7`).  One run
  of the body adds, at entry `(r, o)` of the output block, the eight leaves' weighted values (`leafTerm`) to what the
  block held.  The block is zeroed at `j = 0` and carried from point to point, so after point `16·i + j` it holds zero
  plus the addends of points `16·i … 16·i + j`; it is written back after `j = 15`.
-/
import proofs.«131044_j66254165508708_2_alg».proof.Proof.KernelBody
import proofs.«131044_j66254165508708_2_alg».proof.Proof.KernelStep

noncomputable section

open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen Cert.KernelIdeal.Body

/-- A load of `p` whole rows starting at row `a` reads row `a + y`. -/
theorem ld_rows {Val : EltTy → Type} {e : EltTy} {n m p : Nat} (X : (⟨2, ![n, m]⟩ : Shape).Idx → Val e) (a : Nat)
    (inb : ∀ ax, (![a, 0] : Fin 2 → Nat) ax + (![p, m] : Fin 2 → Nat) ax ≤ (⟨2, ![n, m]⟩ : Shape).size ax)
    (y : Fin p) (k : Fin m) :
    View.ld X (Rect.unit ![a, 0] ![p, m] inb) (ix2 y k)
      = X (ix2 (⟨a + y.val, lt_of_lt_of_le (Nat.add_lt_add_left y.isLt a) (inb 0)⟩ : Fin n) k) :=
  congrArg X (funext fun ax => Fin.ext (by
    match ax with
    | ⟨0, _⟩ => show a + 1 * y.val = a + y.val; omega
    | ⟨1, _⟩ => show 0 + 1 * k.val = k.val; omega))

/-- Leaf `l`'s weighted value at entry `(r, o)` of the output block, from the four input blocks: rows `256·l + o` of the
    weight block, row `l` of the bias and leaf-weight blocks. -/
def leafTerm (x0 : Vec Ideal S2048x513 .bf16) (x1 : Vec Ideal S2048x513 .bf16) (x2 : Vec Ideal S8x256 .f32)
    (x3 : Vec Ideal S8x2048 .f32) (l : Fin 8) (r : Fin 2048) (o : Fin 256) : EReal :=
  (((∑ k : Fin 512, x0 (ix2 r (Fin.castSucc k))
        * x1 (ix2 (⟨256 * l.val + o.val, by have := l.isLt; have := o.isLt; omega⟩ : Fin 2048) (Fin.castSucc k)))
      + x0 (ix2 r (Fin.last 512))
        * x1 (ix2 (⟨256 * l.val + o.val, by have := l.isLt; have := o.isLt; omega⟩ : Fin 2048) (Fin.last 512)))
    + x2 (ix2 l o)) * x3 (ix2 l r)

/-- One run of the body adds the eight leaves' weighted values at every entry. -/
theorem bodyVal_apply (x0 : Vec Ideal S2048x513 .bf16) (x1 : Vec Ideal S2048x513 .bf16) (x2 : Vec Ideal S8x256 .f32)
    (x3 : Vec Ideal S8x2048 .f32) (acc : Vec Ideal S2048x256 .f32) (r : Fin 2048) (o : Fin 256) :
    bodyVal (F := Ideal) x0 x1 x2 x3 acc (ix2 r o) = acc (ix2 r o) + ∑ l : Fin 8, leafTerm x0 x1 x2 x3 l r o := by
  unfold bodyVal
  rw [Step.step_at _ _ _ _ _ r o _ _ _ (fun q k => ld_rows x1 1792 inb_S2048x513_S256x513_1792_0 q k)
    (fun q => ld_rows x2 7 inb_S8x256_S1x256_7_0 (0 : Fin 1) q) (fun q => ld_rows x3 7 inb_S8x2048_S1x2048_7_0 (0 : Fin 1) q)]
  rw [Step.step_at _ _ _ _ _ r o _ _ _ (fun q k => ld_rows x1 1536 inb_S2048x513_S256x513_1536_0 q k)
    (fun q => ld_rows x2 6 inb_S8x256_S1x256_6_0 (0 : Fin 1) q) (fun q => ld_rows x3 6 inb_S8x2048_S1x2048_6_0 (0 : Fin 1) q)]
  rw [Step.step_at _ _ _ _ _ r o _ _ _ (fun q k => ld_rows x1 1280 inb_S2048x513_S256x513_1280_0 q k)
    (fun q => ld_rows x2 5 inb_S8x256_S1x256_5_0 (0 : Fin 1) q) (fun q => ld_rows x3 5 inb_S8x2048_S1x2048_5_0 (0 : Fin 1) q)]
  rw [Step.step_at _ _ _ _ _ r o _ _ _ (fun q k => ld_rows x1 1024 inb_S2048x513_S256x513_1024_0 q k)
    (fun q => ld_rows x2 4 inb_S8x256_S1x256_4_0 (0 : Fin 1) q) (fun q => ld_rows x3 4 inb_S8x2048_S1x2048_4_0 (0 : Fin 1) q)]
  rw [Step.step_at _ _ _ _ _ r o _ _ _ (fun q k => ld_rows x1 768 inb_S2048x513_S256x513_768_0 q k)
    (fun q => ld_rows x2 3 inb_S8x256_S1x256_3_0 (0 : Fin 1) q) (fun q => ld_rows x3 3 inb_S8x2048_S1x2048_3_0 (0 : Fin 1) q)]
  rw [Step.step_at _ _ _ _ _ r o _ _ _ (fun q k => ld_rows x1 512 inb_S2048x513_S256x513_512_0 q k)
    (fun q => ld_rows x2 2 inb_S8x256_S1x256_2_0 (0 : Fin 1) q) (fun q => ld_rows x3 2 inb_S8x2048_S1x2048_2_0 (0 : Fin 1) q)]
  rw [Step.step_at _ _ _ _ _ r o _ _ _ (fun q k => ld_rows x1 256 inb_S2048x513_S256x513_256_0 q k)
    (fun q => ld_rows x2 1 inb_S8x256_S1x256_1_0 (0 : Fin 1) q) (fun q => ld_rows x3 1 inb_S8x2048_S1x2048_1_0 (0 : Fin 1) q)]
  rw [Step.step_at _ _ _ _ _ r o _ _ _ (fun q k => ld_rows x1 0 inb_S2048x513_S256x513_0_0 q k)
    (fun q => ld_rows x2 0 inb_S8x256_S1x256_0_0 (0 : Fin 1) q) (fun q => ld_rows x3 0 inb_S8x2048_S1x2048_0_0 (0 : Fin 1) q)]
  rw [Fin.sum_univ_eight]
  simp only [leafTerm, add_assoc]
  rfl

variable (m : (ℓ : Loc nD τ sig) → Buf (Elt Ideal) ℓ)

/-- The windows' block indices over the grid: point `t` is batch tile `t / 16`, leaf tile `t % 16`. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val % 16 ∧ win0_2.index t (1 : Fin 2) = 0
    ∧ win0_3.index t (0 : Fin 2) = t.val % 16 ∧ win0_3.index t (1 : Fin 2) = t.val / 16
    ∧ win0_4.index t (0 : Fin 2) = t.val / 16 ∧ win0_4.index t (1 : Fin 2) = 0 :=
  (by decide +kernel : ∀ t : Fin grid0.N, _)

theorem N64 : cfg0.N = 64 := N_0

/-- The four arrays the region finds, as arrays of extended reals: the features, the leaf weights, the [128, 256]
    bias matrix and the per-row leaf weights. -/
abbrev Hb (c : Dev nD) : (⟨2, ![8192, 513]⟩ : Shape).Idx → EReal := V m c main_v63
abbrev Wb (c : Dev nD) : (⟨2, ![32768, 513]⟩ : Shape).Idx → EReal := V m c main_v64
abbrev Bb (c : Dev nD) : (⟨2, ![128, 256]⟩ : Shape).Idx → EReal := V m c main_v65
abbrev Sb (c : Dev nD) : (⟨2, ![128, 8192]⟩ : Shape).Idx → EReal := V m c main_v52

/-- The feature block at point `t`: rows `2048·(t/16) …` of the feature array as the region finds it. -/
theorem iblk0_apply (c : Dev nD) (t : Fin cfg0.N) (r : Fin 2048) (k : Fin 513) :
    (iblk m c 0 t : Vec Ideal S2048x513 .bf16) (ix2 r k)
      = Hb m c (ix2 (⟨2048 * (t.val / 16) + r.val, by
          have := lt_of_lt_of_eq t.isLt N64; have := r.isLt; omega⟩ : Fin 8192) k) := by
  obtain ⟨e0, e1, -⟩ := idx_facts t
  unfold iblk
  rw [View.read_apply]
  show V m c main_v63 _ = V m c main_v63 _
  refine congrArg (V m c main_v63) (funext fun a => Fin.ext ?_)
  match a with
  | ⟨0, _⟩ => show win0_0.index t (0 : Fin 2) * 2048 + 1 * r.val = 2048 * (t.val / 16) + r.val; rw [e0]; omega
  | ⟨1, _⟩ => show win0_0.index t (1 : Fin 2) * 513 + 1 * k.val = k.val; rw [e1]; omega

/-- The weight block at point `t`: rows `2048·(t%16) …` of the leaf-weight matrix. -/
theorem iblk1_apply (c : Dev nD) (t : Fin cfg0.N) (q : Fin 2048) (k : Fin 513) :
    (iblk m c 1 t : Vec Ideal S2048x513 .bf16) (ix2 q k)
      = Wb m c (ix2 (⟨2048 * (t.val % 16) + q.val, by
          have := q.isLt; omega⟩ : Fin 32768) k) := by
  obtain ⟨-, -, e0, e1, -⟩ := idx_facts t
  unfold iblk
  rw [View.read_apply]
  show V m c main_v64 _ = V m c main_v64 _
  refine congrArg (V m c main_v64) (funext fun a => Fin.ext ?_)
  match a with
  | ⟨0, _⟩ => show win0_1.index t (0 : Fin 2) * 2048 + 1 * q.val = 2048 * (t.val % 16) + q.val; rw [e0]; omega
  | ⟨1, _⟩ => show win0_1.index t (1 : Fin 2) * 513 + 1 * k.val = k.val; rw [e1]; omega

/-- The bias block at point `t`: rows `8·(t%16) …` of the [128, 256] bias matrix. -/
theorem iblk2_apply (c : Dev nD) (t : Fin cfg0.N) (l : Fin 8) (o : Fin 256) :
    (iblk m c 2 t : Vec Ideal S8x256 .f32) (ix2 l o)
      = Bb m c (ix2 (⟨8 * (t.val % 16) + l.val, by
          have := l.isLt; omega⟩ : Fin 128) o) := by
  obtain ⟨-, -, -, -, e0, e1, -⟩ := idx_facts t
  unfold iblk
  rw [View.read_apply]
  show V m c main_v65 _ = V m c main_v65 _
  refine congrArg (V m c main_v65) (funext fun a => Fin.ext ?_)
  match a with
  | ⟨0, _⟩ => show win0_2.index t (0 : Fin 2) * 8 + 1 * l.val = 8 * (t.val % 16) + l.val; rw [e0]; omega
  | ⟨1, _⟩ => show win0_2.index t (1 : Fin 2) * 256 + 1 * o.val = o.val; rw [e1]; omega

/-- The leaf-weight block at point `t`: rows `8·(t%16) …`, columns `2048·(t/16) …` of the [128, 8192] matrix. -/
theorem iblk3_apply (c : Dev nD) (t : Fin cfg0.N) (l : Fin 8) (r : Fin 2048) :
    (iblk m c 3 t : Vec Ideal S8x2048 .f32) (ix2 l r)
      = Sb m c (ix2 (⟨8 * (t.val % 16) + l.val, by
          have := l.isLt; omega⟩ : Fin 128) (⟨2048 * (t.val / 16) + r.val, by
          have := lt_of_lt_of_eq t.isLt N64; have := r.isLt; omega⟩ : Fin 8192)) := by
  obtain ⟨-, -, -, -, -, -, e0, e1, -⟩ := idx_facts t
  unfold iblk
  rw [View.read_apply]
  show V m c main_v52 _ = V m c main_v52 _
  refine congrArg (V m c main_v52) (funext fun a => Fin.ext ?_)
  match a with
  | ⟨0, _⟩ => show win0_3.index t (0 : Fin 2) * 8 + 1 * l.val = 8 * (t.val % 16) + l.val; rw [e0]; omega
  | ⟨1, _⟩ => show win0_3.index t (1 : Fin 2) * 2048 + 1 * r.val = 2048 * (t.val / 16) + r.val; rw [e1]; omega

/-- Grid point `n` as a point of the grid (any natural, reduced mod 64 so that the addend is a total function). -/
def pt (n : ℕ) : Fin cfg0.N := ⟨n % 64, by rw [N64]; exact Nat.mod_lt _ (by decide)⟩

theorem pt_eq (n : ℕ) (h : n < cfg0.N) : pt n = ⟨n, h⟩ :=
  Fin.ext (Nat.mod_eq_of_lt (by rw [N64] at h; exact h))

/-- What grid point `n` adds at an entry of the output block. -/
def addendAt (c : Dev nD) (n : ℕ) (i : S2048x256.Idx) : EReal :=
  ∑ l : Fin 8, leafTerm (iblk m c 0 (pt n)) (iblk m c 1 (pt n)) (iblk m c 2 (pt n)) (iblk m c 3 (pt n)) l (i 0) (i 1)

/-- The zero block is zero at every entry. -/
theorem zero_apply (i : S2048x256.Idx) : (zero : Vec Ideal S2048x256 .f32) i = 0 := by
  show Ideal.ofBits .f32 0x00000000#32 = 0
  exact Ideal.ofBits_zero_f32

/-- THE ACCUMULATION.  After a point that ends a run (`t % 16 = 15`) the output block holds, at every entry, zero plus
    the sixteen addends of the run's points. -/
theorem outsAt_flush (c : Dev nD) (t : Fin cfg0.N) (ht : t.val % 16 = 15) (i : S2048x256.Idx) :
    outsAt0 m c t.val t.isLt i = 0 + ∑ s ∈ Finset.range 16, addendAt m c (16 * (t.val / 16) + s) i := by
  have hN : cfg0.N = 64 := N64
  have hlt := t.isLt
  have h' : 16 * (t.val / 16) + t.val % 16 < cfg0.N := by rw [Nat.div_add_mod]; exact t.isLt
  have step : ∀ (n : ℕ) (h : n < cfg0.N) (acc : Vec Ideal S2048x256 .f32) (j : S2048x256.Idx),
      bodyVal (iblk m c 0 ⟨n, h⟩) (iblk m c 1 ⟨n, h⟩) (iblk m c 2 ⟨n, h⟩) (iblk m c 3 ⟨n, h⟩) acc j
        = acc j + addendAt m c n j := by
    intro n h acc j
    obtain ⟨r, o, rfl⟩ : ∃ (r : Fin 2048) (o : Fin 256), j = ix2 r o := ⟨j 0, j 1, eq_ix2 j⟩
    rw [bodyVal_apply]
    unfold addendAt
    rw [pt_eq n h]
  rw [Pipeline.eq_accAt_of_mod (fun n h => outsAt0 m c n h) 16
    (fun n h => bodyVal (iblk m c 0 ⟨n, h⟩) (iblk m c 1 ⟨n, h⟩) (iblk m c 2 ⟨n, h⟩) (iblk m c 3 ⟨n, h⟩) zero)
    (fun n h acc => bodyVal (iblk m c 0 ⟨n, h⟩) (iblk m c 1 ⟨n, h⟩) (iblk m c 2 ⟨n, h⟩) (iblk m c 3 ⟨n, h⟩) acc)
    (fun n h h0 => (outsAt0_A m c ⟨n, h⟩ h0).trans (out_A ..))
    (fun n h hs => (outsAt0_B m c ⟨n + 1, h⟩ hs).trans (out_B ..))
    (by decide) t.val t.isLt h']
  have key := Pipeline.accAt_add_apply (ι := S2048x256.Idx) (β := EReal)
    (fun n h => bodyVal (iblk m c 0 ⟨n, h⟩) (iblk m c 1 ⟨n, h⟩) (iblk m c 2 ⟨n, h⟩) (iblk m c 3 ⟨n, h⟩) zero)
    (fun n h acc => bodyVal (iblk m c 0 ⟨n, h⟩) (iblk m c 1 ⟨n, h⟩) (iblk m c 2 ⟨n, h⟩) (iblk m c 3 ⟨n, h⟩) acc)
    (fun _ => (0 : EReal)) (addendAt m c) (16 * (t.val / 16)) 15
    (fun h j => by rw [step, zero_apply])
    (fun n h acc j _ _ => step n h acc j)
    (t.val % 16) (by omega) h' i
  rw [key, ht]

end Cert.KernelIdeal.Chain

end
-- ==== Proof.LeafAlgebra.lean ====
/-
  Algebra on the extended reals used to join the two programs.

  Addition and multiplication of extended reals are commutative and associative, but multiplication distributes
  over addition only with care (`⊤ + ⊥ = ⊥` breaks it for a negative or infinite factor).  The one place the two
  programs differ by more than a re-association is the common scale factor: one program multiplies every
  summand by it, the other multiplies the finished sum.  For a factor that is a nonnegative real the two agree
  whatever the summands are.
-/
import Idealize.ShloMosaic.PureOps.Ideal

noncomputable section

namespace Cert.LeafAlgebra

open Finset

/-- A nonnegative real factor distributes over a finite sum of extended reals, whatever the summands. -/
theorem sum_mul_coe_of_nonneg {ι : Type} (s : Finset ι) (a : ι → EReal) (c : ℝ) (hc : 0 ≤ c) :
    (∑ l ∈ s, a l) * (c : EReal) = ∑ l ∈ s, a l * (c : EReal) := by
  classical
  induction s using Finset.induction_on with
  | empty => simp
  | insert x s hx ih =>
    rw [Finset.sum_insert hx, Finset.sum_insert hx,
      EReal.right_distrib_of_nonneg_of_ne_top (EReal.coe_nonneg.mpr hc) (EReal.coe_ne_top c), ih]

/-- The weighted combination of the leaves: scaling the finished sum by a nonnegative real `c` is scaling each
    leaf's value `q l` before it is weighted by `w l`. -/
theorem weighted_sum_scale {ι : Type} (s : Finset ι) (q w : ι → EReal) (c : ℝ) (hc : 0 ≤ c) :
    (0 + ∑ l ∈ s, q l * w l) * (c : EReal) = 0 + ∑ l ∈ s, (q l * (c : EReal)) * w l := by
  rw [zero_add, zero_add, sum_mul_coe_of_nonneg s _ c hc]
  exact Finset.sum_congr rfl fun l _ => mul_right_comm (q l) (w l) (c : EReal)

/-- A sum of 513 terms is the sum of its first 512 and the last one. -/
theorem sum_513_split (f : Fin 513 → EReal) :
    ∑ k : Fin 513, f k = (∑ k : Fin 512, f (Fin.castSucc k)) + f (Fin.last 512) :=
  Fin.sum_univ_castSucc f

/-- Sixteen groups of eight, summed group by group, are the 128 terms summed in order. -/
theorem sum_16x8 (f : Fin 128 → EReal) :
    ∑ j : Fin 16, ∑ l : Fin 8, f ⟨8 * j.val + l.val, by have := j.isLt; have := l.isLt; omega⟩ = ∑ L : Fin 128, f L := by
  rw [← Finset.sum_product', Finset.univ_product_univ]
  refine Fintype.sum_equiv (finProdFinEquiv (m := 16) (n := 8)) _ _ fun p => ?_
  congr 1
  apply Fin.ext
  show 8 * p.1.val + p.2.val = (finProdFinEquiv p).val
  simp [finProdFinEquiv, Nat.mul_comm]
  omega

end Cert.LeafAlgebra

end
-- ==== Proof.LeafSpec.lean ====
/-
  The result of both programs as ONE explicit function of five arrays, in the two arrangements the programs
  compute it in, and the law that joins the arrangements.

  `H` is the [8192, 513] feature matrix, `W` the [32768, 513] leaf weights (row `256·L + o` is output `o` of leaf
  `L`), `B` the 32768 leaf biases laid out the same way, `S` the [128, 8192] leaf weights of each batch row, and
  `c` the common scale.  Entry `(R, o)` of the result is

      Σ_L ( Σ_k H[R,k]·W[256L+o,k] + B[256L+o] ) · c · S[L,R]         (the reference: scale each leaf's value)
      ( Σ_j Σ_l ( Σ_{k<512} H[R,k]·W[..,k] + H[R,512]·W[..,512] + B[..] ) · S[8j+l,R] ) · c
                                                                      (the kernel: leaves in 16 groups of 8, the
                                                                       513-term inner product split 512 + 1, the
                                                                       scale applied to the finished sum)

  The two agree when `c` is a nonnegative real: sums of extended reals re-associate freely, products commute, and
  a nonnegative real factor distributes over any finite sum.
-/
import proofs.«131044_j66254165508708_2_alg».proof.Proof.LeafAlgebra
import Idealize.ShloMosaic.Lib.ValueIdx

noncomputable section

namespace Cert.LeafSpec

open Idealize.ShloMosaic Idealize.ShloMosaic.ValueIdx Finset

/-- Row `256·L + o` of the leaf weights and biases: output `o` of leaf `L`. -/
def leafRow (L : Fin 128) (o : Fin 256) : Fin 32768 :=
  ⟨256 * L.val + o.val, by have := L.isLt; have := o.isLt; omega⟩

/-- Leaf `l` of group `j`. -/
def leafOf (j : Fin 16) (l : Fin 8) : Fin 128 :=
  ⟨8 * j.val + l.val, by have := j.isLt; have := l.isLt; omega⟩

variable (H : (⟨2, ![8192, 513]⟩ : Shape).Idx → EReal) (W : (⟨2, ![32768, 513]⟩ : Shape).Idx → EReal)
  (B : (⟨1, ![32768]⟩ : Shape).Idx → EReal) (S : (⟨2, ![128, 8192]⟩ : Shape).Idx → EReal)

/-- One leaf's affine value at `(R, o)`, the inner product over all 513 features. -/
def leafVal (R : Fin 8192) (o : Fin 256) (L : Fin 128) : EReal :=
  (∑ k : Fin 513, H (ix2 R k) * W (ix2 (leafRow L o) k)) + B (ix1 (leafRow L o))

/-- The same with the inner product split into its first 512 features and the last one. -/
def leafValSplit (R : Fin 8192) (o : Fin 256) (L : Fin 128) : EReal :=
  ((∑ k : Fin 512, H (ix2 R (Fin.castSucc k)) * W (ix2 (leafRow L o) (Fin.castSucc k)))
    + H (ix2 R (Fin.last 512)) * W (ix2 (leafRow L o) (Fin.last 512))) + B (ix1 (leafRow L o))

theorem leafValSplit_eq (R : Fin 8192) (o : Fin 256) (L : Fin 128) : leafValSplit H W B R o L = leafVal H W B R o L := by
  unfold leafValSplit leafVal
  rw [Cert.LeafAlgebra.sum_513_split]

/-- The reference's arrangement: every leaf's value scaled, then weighted, then summed from zero. -/
def refForm (c : EReal) (R : Fin 8192) (o : Fin 256) : EReal :=
  0 + ∑ L : Fin 128, (leafVal H W B R o L * c) * S (ix2 L R)

/-- The kernel's arrangement: the weighted split values summed from zero group by group, the sum scaled. -/
def kerForm (c : EReal) (R : Fin 8192) (o : Fin 256) : EReal :=
  (0 + ∑ j : Fin 16, ∑ l : Fin 8, leafValSplit H W B R o (leafOf j l) * S (ix2 (leafOf j l) R)) * c

/-- For a nonnegative real scale the two arrangements are one extended real. -/
theorem kerForm_eq_refForm (c : ℝ) (hc : 0 ≤ c) (R : Fin 8192) (o : Fin 256) :
    kerForm H W B S (c : EReal) R o = refForm H W B S (c : EReal) R o := by
  unfold kerForm refForm
  rw [show (∑ j : Fin 16, ∑ l : Fin 8, leafValSplit H W B R o (leafOf j l) * S (ix2 (leafOf j l) R))
      = ∑ L : Fin 128, leafVal H W B R o L * S (ix2 L R) from by
    rw [← Cert.LeafAlgebra.sum_16x8 (fun L => leafVal H W B R o L * S (ix2 L R))]
    refine Finset.sum_congr rfl fun j _ => Finset.sum_congr rfl fun l _ => ?_
    rw [leafValSplit_eq]
    rfl]
  exact Cert.LeafAlgebra.weighted_sum_scale Finset.univ (fun L => leafVal H W B R o L) (fun L => S (ix2 L R)) c hc

/-! ## The kernel's sum in block coordinates

The kernel works tile by tile: batch row `R = 2048·i + r`, weight row `2048·j + (256·l + o)` for leaf `l` of group `j`.
The same sum written in those coordinates, with the bias as the [128, 256] matrix the kernel is handed. -/

/-- Row `r` of batch tile `i`. -/
def rowOf (i : Fin 4) (r : Fin 2048) : Fin 8192 :=
  ⟨2048 * i.val + r.val, by have := i.isLt; have := r.isLt; omega⟩

/-- Row `256·l + o` of weight tile `j`. -/
def wrow (j : Fin 16) (l : Fin 8) (o : Fin 256) : Fin 32768 :=
  ⟨2048 * j.val + (256 * l.val + o.val), by have := j.isLt; have := l.isLt; have := o.isLt; omega⟩

theorem wrow_eq (j : Fin 16) (l : Fin 8) (o : Fin 256) : wrow j l o = leafRow (leafOf j l) o :=
  Fin.ext (by show 2048 * j.val + (256 * l.val + o.val) = 256 * (8 * j.val + l.val) + o.val; omega)

theorem rowOf_div_mod (R : Fin 8192) :
    rowOf ⟨R.val / 2048, by have := R.isLt; omega⟩ ⟨R.val % 2048, Nat.mod_lt _ (by decide)⟩ = R :=
  Fin.ext (by show 2048 * (R.val / 2048) + R.val % 2048 = R.val; omega)

/-- The kernel's unscaled sum at row `r` of batch tile `i`, the bias a [128, 256] matrix. -/
def kerSumAt (B2 : (⟨2, ![128, 256]⟩ : Shape).Idx → EReal) (i : Fin 4) (r : Fin 2048) (o : Fin 256) : EReal :=
  0 + ∑ j : Fin 16, ∑ l : Fin 8,
    (((∑ k : Fin 512, H (ix2 (rowOf i r) (Fin.castSucc k)) * W (ix2 (wrow j l o) (Fin.castSucc k)))
        + H (ix2 (rowOf i r) (Fin.last 512)) * W (ix2 (wrow j l o) (Fin.last 512)))
      + B2 (ix2 (leafOf j l) o)) * S (ix2 (leafOf j l) (rowOf i r))

/-- When the bias matrix is the bias vector reshaped, the block-coordinate sum scaled is the kernel's arrangement. -/
theorem kerSumAt_mul (B2 : (⟨2, ![128, 256]⟩ : Shape).Idx → EReal)
    (hB : ∀ (L : Fin 128) (o : Fin 256), B2 (ix2 L o) = B (ix1 (leafRow L o))) (c : EReal) (R : Fin 8192) (o : Fin 256) :
    kerSumAt H W S B2 ⟨R.val / 2048, by have := R.isLt; omega⟩ ⟨R.val % 2048, Nat.mod_lt _ (by decide)⟩ o * c
      = kerForm H W B S c R o := by
  unfold kerSumAt kerForm leafValSplit
  simp only [rowOf_div_mod, wrow_eq, hB]

end Cert.LeafSpec

end
-- ==== Proof.KernelArray.lean ====
/-
  The kernel's output array after the run, as one function of the four arrays the region finds.

  The output block of batch tile `i` is written back once, after the last leaf tile.  By then it holds zero plus the
  sixteen leaf tiles' addends, so entry `(R, o)` of the output array is the kernel's unscaled sum of the 128
  leaves' weighted values at batch row `R`.  The four batch tiles' blocks cover the array.
-/
import proofs.«131044_j66254165508708_2_alg».proof.Proof.KernelChain
import proofs.«131044_j66254165508708_2_alg».proof.Proof.LeafSpec

noncomputable section

open Idealize.ShloMosaic Idealize.ShloMosaic.TcCoe Idealize.SL.Sem Idealize.ShloMosaic.ValueIdx
open Idealize.ShloMosaic.Pipeline (Dat)

namespace Cert.KernelIdeal.OutArray

open Cert.KernelIdeal Cert.KernelIdeal.Gen Cert.KernelIdeal.Body Cert.KernelIdeal.Chain Cert.LeafSpec

variable (m : (ℓ : Loc nD τ sig) → Buf (Elt Ideal) ℓ)

/-- Entry `(R, o)` of the output array: zero plus the addends of the sixteen points of batch tile `R / 2048`, at row
    `R % 2048` of the block. -/
def kOut (c : Dev nD) : S8192x256.Idx → EReal := fun I =>
  0 + ∑ s ∈ Finset.range 16, addendAt m c (16 * ((I 0).val / 2048) + s)
    (ix2 (⟨(I 0).val % 2048, Nat.mod_lt _ (by decide)⟩ : Fin 2048) (I 1 : Fin 256))

/-- What the point that ends a run writes back is its block of `kOut`. -/
theorem flushed_eq (c : Dev nD) (t : Fin cfg0.N) (hf : (cfg0.win 4).flush t = true) :
    (dats m 0 c).flushed 4 t = ((cfg0.win 4).blk t).view.read (Elt Ideal) (kOut m c) := by
  have ht : t.val % 16 = 15 := (flush0_4 t).mp hf
  obtain ⟨-, -, -, -, -, -, -, -, e0, e1⟩ := idx_facts t
  show (cfg0.win 4).cut (grid0.coords t) ((dats m 0 c).after 4 t) = _
  rw [after0_4]
  funext y
  rw [View.read_apply]
  show outsAt0 m c t.val t.isLt y = kOut m c (((cfg0.win 4).blk t).view.emb y)
  rw [outsAt_flush m c t ht y]
  have hy0 : (y 0).val < 2048 := (y 0).isLt
  have h0 : ((((cfg0.win 4).blk t).view.emb y) 0).val = t.val / 16 * 2048 + (y 0).val := by
    show win0_4.index t (0 : Fin 2) * 2048 + 1 * (y 0).val = _
    rw [e0]; omega
  have h1 : ((((cfg0.win 4).blk t).view.emb y) 1).val = (y 1).val := by
    show win0_4.index t (1 : Fin 2) * 256 + 1 * (y 1).val = _
    rw [e1]; omega
  unfold kOut
  refine congrArg (0 + ·) (Finset.sum_congr rfl fun s _ => ?_)
  refine congrArg₂ (addendAt m c) (by rw [h0]; omega) (funext fun a => Fin.ext ?_)
  match a with
  | ⟨0, _⟩ => show (y 0).val = ((((cfg0.win 4).blk t).view.emb y) 0).val % 2048; rw [h0]; omega
  | ⟨1, _⟩ => exact h1.symm

/-- An index of the output array is in point `t`'s block iff each coordinate is in the block's range. -/
theorem mem_blk4 (t : Fin cfg0.N) (i : S8192x256.Idx) :
    i ∈ ((cfg0.win 4).blk t).view.set ↔ ∀ a : Fin 2, win0_4.index t a * S2048x256.size a ≤ (i a).val
      ∧ (i a).val < win0_4.index t a * S2048x256.size a + S2048x256.size a := by
  show i ∈ ((View.whole main_v66).slice (win0_4.rect t)).set ↔ _
  rw [View.set_slice_whole, Rect.mem_set_unit]
  exact Iff.rfl

/-- Every entry of the output array is in the block some run's last point writes back: row `R` in batch tile
    `R / 2048`'s. -/
theorem cover (c : Dev nD) (I : S8192x256.Idx) :
    ∃ t : Fin cfg0.N, (cfg0.win 4).flush t = true ∧ I ∈ ((cfg0.win 4).blk t).view.set := by
  have hI0 : (I 0).val < 8192 := (I 0).isLt
  have hI1 : (I 1).val < 256 := (I 1).isLt
  have hlt : 16 * ((I 0).val / 2048) + 15 < cfg0.N := by rw [N64]; omega
  obtain ⟨-, -, -, -, -, -, -, -, e0, e1⟩ := idx_facts ⟨16 * ((I 0).val / 2048) + 15, hlt⟩
  refine ⟨⟨16 * ((I 0).val / 2048) + 15, hlt⟩, (flush0_4 _).mpr (by show (16 * ((I 0).val / 2048) + 15) % 16 = 15; omega), ?_⟩
  rw [mem_blk4]
  intro a
  match a with
  | ⟨0, _⟩ =>
    show win0_4.index ⟨16 * ((I 0).val / 2048) + 15, hlt⟩ (0 : Fin 2) * 2048 ≤ (I 0).val
      ∧ (I 0).val < win0_4.index ⟨16 * ((I 0).val / 2048) + 15, hlt⟩ (0 : Fin 2) * 2048 + 2048
    rw [e0]
    show (16 * ((I 0).val / 2048) + 15) / 16 * 2048 ≤ (I 0).val ∧ (I 0).val < (16 * ((I 0).val / 2048) + 15) / 16 * 2048 + 2048
    omega
  | ⟨1, _⟩ =>
    show win0_4.index ⟨16 * ((I 0).val / 2048) + 15, hlt⟩ (1 : Fin 2) * 256 ≤ (I 1).val
      ∧ (I 1).val < win0_4.index ⟨16 * ((I 0).val / 2048) + 15, hlt⟩ (1 : Fin 2) * 256 + 256
    rw [e1]
    omega

/-- THE OUTPUT ARRAY after the run. -/
theorem final (c : Dev nD) : (dats m 0 c).arrAt 4 cfg0.N = kOut m c :=
  (dats m 0 c).arrAt_eq_of_cover 4 (kOut m c) (flushed_eq m c) (cover c)

/-- One leaf's weighted value at a point of batch tile `i`, leaf tile `j`, read off the arrays the region finds. -/
theorem leafTerm_blocks (c : Dev nD) (i : Fin 4) (j : Fin 16) (l : Fin 8) (r : Fin 2048) (o : Fin 256) :
    leafTerm (iblk m c 0 (pt (16 * i.val + j.val))) (iblk m c 1 (pt (16 * i.val + j.val)))
        (iblk m c 2 (pt (16 * i.val + j.val))) (iblk m c 3 (pt (16 * i.val + j.val))) l r o
      = (((∑ k : Fin 512, Hb m c (ix2 (rowOf i r) (Fin.castSucc k))
              * Wb m c (ix2 (wrow j l o) (Fin.castSucc k)))
            + Hb m c (ix2 (rowOf i r) (Fin.last 512))
              * Wb m c (ix2 (wrow j l o) (Fin.last 512)))
          + Bb m c (ix2 (leafOf j l) o))
        * Sb m c (ix2 (leafOf j l) (rowOf i r)) := by
  have hi := i.isLt
  have hj := j.isLt
  have h : 16 * i.val + j.val < cfg0.N := by rw [N64]; omega
  have e1 : (16 * i.val + j.val) / 16 = i.val := by omega
  have e2 : (16 * i.val + j.val) % 16 = j.val := by omega
  rw [pt_eq _ h]
  unfold leafTerm
  simp only [iblk0_apply, iblk1_apply, iblk2_apply, iblk3_apply, Fin.val_mk, e1, e2]
  rfl

/-- The output array is the kernel's unscaled sum over the arrays the region finds. -/
theorem kOut_eq (c : Dev nD) (I : S8192x256.Idx) :
    kOut m c I = kerSumAt (Hb m c) (Wb m c) (Sb m c) (Bb m c)
      ⟨(I 0).val / 2048, by have : (I 0).val < 8192 := (I 0).isLt; omega⟩ ⟨(I 0).val % 2048, Nat.mod_lt _ (by decide)⟩ (I 1 : Fin 256) := by
  unfold kOut kerSumAt
  refine congrArg (0 + ·) ?_
  rw [Finset.sum_range]
  refine Finset.sum_congr rfl fun j _ => ?_
  unfold addendAt
  refine Finset.sum_congr rfl fun l _ => ?_
  exact leafTerm_blocks m c ⟨(I 0).val / 2048, by have : (I 0).val < 8192 := (I 0).isLt; omega⟩ j l _ _

end Cert.KernelIdeal.OutArray

end
-- ==== Proof.KernelRun.lean ====
/-
  The kernel's run with its result named: the output array of the region multiplied, entry by entry, by the scale.
-/
import proofs.«131044_j66254165508708_2_alg».proof.Proof.KernelArray
import Idealize.ShloMosaic.Lib.StableHlo.Run

noncomputable section

open Idealize.ShloMosaic Idealize.ShloMosaic.TcCoe Idealize.SL.Sem Idealize.ShloMosaic.StableHlo Idealize.ShloMosaic.ValueIdx
open Idealize.ShloMosaic.Pipeline (Dat)

namespace Cert.KernelIdeal.Run

open Cert.KernelIdeal Cert.KernelIdeal.Gen Cert.KernelIdeal.Chain Cert.KernelIdeal.OutArray

variable (m : (ℓ : Loc nD τ sig) → Buf (Elt Ideal) ℓ) (ρ : Dev nD → PrngReg)

/-- The scale the host computes before the region, a rank-0 array. -/
abbrev scaleK (c : Dev nD) : (⟨0, ![]⟩ : Shape).Idx → EReal := V m c main_v62

/-- The result, entry by entry: the region's output array times the scale. -/
def result (c : Dev nD) : S8192x256.Idx → EReal := fun I => kOut m c I * scaleK m c ix0

/-- The two host operations after the region leave the result. -/
theorem tail_eq (c : Dev nD) :
    Pipeline.afterTail₀ cfgs (dats m) 0 (V0 m) [hostOps1] c main_v68 = result m c := by
  unfold Pipeline.afterTail₀
  show StableHlo.after hostOps1 _ (Proc.devRef .tc main_v68) = _
  after_results
  rw [Pipeline.withArrays_of_ne _ c (V0 m c) _ main_v62 (by decide)]
  have h4 : Pipeline.withArrays (cfgs 0).spec c (V0 m c) (fun w => (dats m 0 c).arrAt w (cfgs 0).N) (Proc.devRef .tc main_v66)
      = (dats m 0 c).arrAt 4 (cfgs 0).N :=
    Pipeline.withArrays_arr spec0 launch0.win.arr_inj c (V0 m c) (fun w => (dats m 0 c).arrAt w (cfgs 0).N) 4
  rw [h4]
  rw [show (dats m 0 c).arrAt 4 (cfgs 0).N = kOut m c from final m c]
  funext I
  show kOut m c I * broadcastInDim S8192x256 ![] bcast_S_S8192x256 (V0 m c (Proc.devRef .tc main_v62)) I = _
  rw [broadcastInDim_apply _ bcast_S_S8192x256 _ I ix0 (fun a => a.elim0)]
  rfl

/-- THE RUN: every weakly fair execution terminates with the result array at `result` and the arguments unchanged. -/
theorem run : θ_run defs (onTc (τ := τ) (main (F := Ideal))) ⟨m, fun _ => 0, ρ⟩ (fun r => ∀ c : Dev nD,
      r.2.mem ((c.tc : Thread nD τ).loc main_v68) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v68 (Pipeline.mem_restRefs_of main_v68 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Run

end
-- ==== Proof.KernelHost.lean ====
/-
  The arrays the kernel's region is handed are the reference's own intermediate arrays (part 1: the features, the
  leaf weights, the biases).

  Both programs compute the features `h`, the per-row leaf weights `s_w` and the scale by the same host operations
  on the same arguments before they part ways.  Here the kernel's host operations before the region are read off,
  buffer by buffer, as the reference's stages of the kernel's arguments: the features (rounded to a narrower float
  format, which is the identity on extended reals), the leaf weights likewise, the biases reshaped to [128, 256].
-/
import proofs.«131044_j66254165508708_2_alg».proof.Proof.Gen.KernelIdeal.Frame
import proofs.«131044_j66254165508708_2_alg».proof.Proof.RefRead
import Idealize.ShloMosaic.Lib.StableHlo.Run
import Idealize.ShloMosaic.Lib.Tactic

noncomputable section

open Idealize.ShloMosaic Idealize.ShloMosaic.TcCoe Idealize.SL.Sem Idealize.ShloMosaic.StableHlo

namespace Cert.KernelIdeal.Host

open Cert.KernelIdeal Cert.KernelIdeal.Gen

variable (m : (ℓ : Loc nD τ sig) → Buf (Elt Ideal) ℓ)

set_option maxHeartbeats 4000000 in
/-- The feature array the region finds is the reference's features of the kernel's arguments. -/
theorem V_features (c : Dev nD) :
    V m c main_v63 = Cert.ReferenceIdeal.Read.val_main_v5 (F := Ideal) (m ((c.tc : Thread nD τ).loc main_arg0)) (m ((c.tc : Thread nD τ).loc main_arg1)) (m ((c.tc : Thread nD τ).loc main_arg2)) := by
  dsimp only [V, V0]
  simp only [hostOps0, hostOps0_1, hostOps0_2, hostOps0_3, hostOps0_4, List.flatten_cons, List.flatten_nil, List.append_nil,
    List.cons_append, List.nil_append]
  after_results_simp
  rfl

set_option maxHeartbeats 4000000 in
/-- The leaf weights the region finds are the argument. -/
theorem V_weights (c : Dev nD) :
    V m c main_v64 = m ((c.tc : Thread nD τ).loc main_arg4) := by
  dsimp only [V, V0]
  simp only [hostOps0, hostOps0_1, hostOps0_2, hostOps0_3, hostOps0_4, List.flatten_cons, List.flatten_nil, List.append_nil,
    List.cons_append, List.nil_append]
  after_results_simp
  rfl

set_option maxHeartbeats 4000000 in
/-- The bias matrix the region finds is the bias argument reshaped. -/
theorem V_bias (c : Dev nD) (b5 : S32768.Idx → EReal) (hb : b5 = m ((c.tc : Thread nD τ).loc main_arg5)) :
    V m c main_v65 = shapeCast S128x256 b5 shapeCasts_S32768_S128x256 := by
  subst hb
  dsimp only [V, V0]
  simp only [hostOps0, hostOps0_1, hostOps0_2, hostOps0_3, hostOps0_4, List.flatten_cons, List.flatten_nil, List.append_nil,
    List.cons_append, List.nil_append]
  after_results_simp
  rfl

end Cert.KernelIdeal.Host

end
-- ==== Proof.KernelHostLeafw.lean ====
/-
  The per-row leaf weights the kernel's region is handed are the reference's: the same host operations (the cosine
  routing, the gather of the route probabilities, the clipped logarithms summed along each route, the exponential)
  on the same arguments.
-/
import proofs.«131044_j66254165508708_2_alg».proof.Proof.Gen.KernelIdeal.Frame
import proofs.«131044_j66254165508708_2_alg».proof.Proof.RefRead
import Idealize.ShloMosaic.Lib.StableHlo.Run
import Idealize.ShloMosaic.Lib.Tactic

noncomputable section

open Idealize.ShloMosaic Idealize.ShloMosaic.TcCoe Idealize.SL.Sem Idealize.ShloMosaic.StableHlo

namespace Cert.KernelIdeal.Host

open Cert.KernelIdeal Cert.KernelIdeal.Gen

variable (m : (ℓ : Loc nD τ sig) → Buf (Elt Ideal) ℓ)

set_option maxHeartbeats 8000000 in
/-- The per-row leaf weights the region finds are the reference's. -/
theorem V_leafw (c : Dev nD) :
    V m c main_v52 = Cert.ReferenceIdeal.Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  dsimp only [V, V0]
  simp only [hostOps0, hostOps0_1, hostOps0_2, hostOps0_3, hostOps0_4, List.flatten_cons, List.flatten_nil, List.append_nil,
    List.cons_append, List.nil_append]
  after_results_simp
  rfl

end Cert.KernelIdeal.Host

end
-- ==== Proof.KernelHostScale.lean ====
/-
  The scale the kernel multiplies its finished sum by is the reference's: one plus the mean over the batch of the
  routing entropies divided by the maximal entropy, computed by the same host operations on the same arguments.
-/
import proofs.«131044_j66254165508708_2_alg».proof.Proof.Gen.KernelIdeal.Frame
import proofs.«131044_j66254165508708_2_alg».proof.Proof.RefRead
import Idealize.ShloMosaic.Lib.StableHlo.Run
import Idealize.ShloMosaic.Lib.Tactic

noncomputable section

open Idealize.ShloMosaic Idealize.ShloMosaic.TcCoe Idealize.SL.Sem Idealize.ShloMosaic.StableHlo

namespace Cert.KernelIdeal.Host

open Cert.KernelIdeal Cert.KernelIdeal.Gen

variable (m : (ℓ : Loc nD τ sig) → Buf (Elt Ideal) ℓ)

set_option maxHeartbeats 8000000 in
/-- The scale the kernel multiplies by after the region is the reference's. -/
theorem V_scale (c : Dev nD) :
    V m c main_v62 = Cert.ReferenceIdeal.Read.val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  dsimp only [V, V0]
  simp only [hostOps0, hostOps0_1, hostOps0_2, hostOps0_3, hostOps0_4, List.flatten_cons, List.flatten_nil, List.append_nil,
    List.cons_append, List.nil_append]
  after_results_simp
  rfl

end Cert.KernelIdeal.Host

end
-- ==== Proof.RefValue.lean ====
/-
  The reference's result, entry by entry: it is the reference arrangement of the specification, over the reference's
  own features `H` (operation 5), the leaf weights and biases as given, its own per-row leaf weights `S`
  (operation 52) and its own scale (operation 68).

  The reference forms `(H · Wᵀ + b)` as an [8192, 32768] matrix, reshapes it to [8192, 128, 256] (column `256·L + o`
  becomes `(L, o)`), multiplies by the scale and by `Sᵀ` broadcast along the last axis, and sums over the leaves.
-/
import proofs.«131044_j66254165508708_2_alg».proof.Proof.RefRead
import proofs.«131044_j66254165508708_2_alg».proof.Proof.LeafSpec

noncomputable section

open Idealize.ShloMosaic Idealize.ShloMosaic.TcCoe Idealize.ShloMosaic.ValueIdx

namespace Cert.RefValue

open Cert.ReferenceIdeal Cert.ReferenceIdeal.Read Cert.LeafSpec

/-- The reference's result is the reference arrangement of the specification. -/
theorem ref_eq (x0 : (⟨S8192x512, .f32⟩ : BufTy).Contents (Elt Ideal)) (x1 : (⟨S513x512, .f32⟩ : BufTy).Contents (Elt Ideal))
    (x2 : (⟨S513, .f32⟩ : BufTy).Contents (Elt Ideal)) (x3 : (⟨S127x513, .f32⟩ : BufTy).Contents (Elt Ideal))
    (x4 : (⟨S32768x513, .f32⟩ : BufTy).Contents (Elt Ideal)) (x5 : (⟨S32768, .f32⟩ : BufTy).Contents (Elt Ideal))
    (x6 x7 : (⟨S128x7, .i32⟩ : BufTy).Contents (Elt Ideal)) (R : Fin 8192) (o : Fin 256) :
    val_main_v75 (F := Ideal) x0 x1 x2 x3 x4 x5 x6 x7 (ix2 R o)
      = refForm (val_main_v5 (F := Ideal) x0 x1 x2) x4 x5 (val_main_v52 (F := Ideal) x0 x1 x2 x3 x6 x7)
          (val_main_v68 (F := Ideal) x0 x1 x2 x3 x6 x7 ix0) R o := by
  rw [val_main_v75_apply]
  unfold refForm
  refine congr (congrArg HAdd.hAdd (show val_main_cst_18 (F := Ideal) _ = (0 : EReal) from Ideal.ofBits_zero_f32)) ?_
  refine Finset.sum_congr rfl fun L _ => ?_
  rw [val_main_v74_apply, val_main_v70_apply, val_main_v65_apply, val_main_v64_apply, val_main_v61_apply,
    val_main_v63_apply, val_main_v62_apply, val_main_v69_apply, val_main_v73_apply, val_main_v72_apply, val_main_v71_apply]
  have hL := L.isLt
  have ho := o.isLt
  have e65_0 : ((idx_main_v65 (idx_main_v75 (ix2 R o) L)) 0).val = R.val := by
    show ((R.val * 128 + L.val) * 256 + o.val) / 32768 = R.val; omega
  have e65_1 : ((idx_main_v65 (idx_main_v75 (ix2 R o) L)) 1).val = 256 * L.val + o.val := by
    show ((R.val * 128 + L.val) * 256 + o.val) % 32768 = 256 * L.val + o.val; omega
  have eL : ∀ k : Fin 513, lidx_main_v61 (idx_main_v65 (idx_main_v75 (ix2 R o) L)) k = ix2 R k := fun k =>
    funext fun a => Fin.ext (by
      match a with
      | ⟨0, _⟩ => exact e65_0
      | ⟨1, _⟩ => rfl)
  have eR : ∀ k : Fin 513, idx_main_v60 (ridx_main_v61 (idx_main_v65 (idx_main_v75 (ix2 R o) L)) k) = ix2 (leafRow L o) k := fun k =>
    funext fun a => Fin.ext (by
      match a with
      | ⟨0, _⟩ => exact e65_1
      | ⟨1, _⟩ => rfl)
  have eB : idx_main_v62 (idx_main_v63 (idx_main_v65 (idx_main_v75 (ix2 R o) L))) = ix1 (leafRow L o) :=
    funext fun a => Fin.ext (by
      match a with
      | ⟨0, _⟩ => exact e65_1)
  have eS : idx_main_v71 (idx_main_v72 (idx_main_v73 (idx_main_v75 (ix2 R o) L))) = ix2 L R :=
    funext fun a => Fin.ext (by
      match a with
      | ⟨0, _⟩ => rfl
      | ⟨1, _⟩ => rfl)
  have eC : idx_main_v69 (idx_main_v75 (ix2 R o) L) = ix0 := funext fun a => a.elim0
  simp only [val_main_v60_apply, eL, eR]
  rw [eB, eS, eC]
  rfl

end Cert.RefValue

end
-- ==== Proof.ScaleSign.lean ====
/- The scalar "scale" of the reference program is a real number at least one, for every value of @main's
   arguments. It is `1 + (0 + ∑ b, e b) / 8192` with `e b = (-(0 + ∑ l, s l b * p l b)) / (c * log 6)`,
   `s l b = exp (p l b)` and `p l b = 0 + ∑ k, log (min hi (max lo (g l k b)))`, where `lo` and `hi` are two f32
   literals with `0 < lo ≤ hi ≤ 1`, `c` is a positive f32 literal, and `g` is a gathered value about which nothing
   is assumed: it may be any extended real, the infinities included. Clipping puts it in the real interval
   `[lo, hi]`, so every logarithm is a real `≤ 0`; then `p` is a real `≤ 0`, `s = exp p` a real `> 0`, `s * p` a
   real `≤ 0`, the sum over `l` a real `≤ 0`, its negation a real `≥ 0`; the divisor `c * log 6` is a real `> 0`
   since `6 > 1`; so each `e b` is a real `≥ 0`, and so are their sum and its quotient by `8192`. -/
import proofs.«131044_j66254165508708_2_alg».proof.Proof.RefRead

noncomputable section

namespace Cert.ScaleSign

open Cert.ReferenceIdeal Cert.ReferenceIdeal.Gen Cert.ReferenceIdeal.Read Idealize.ShloMosaic

/-! ### The literals as reals

Each f32 pattern with exponent field `e`, `0 < e < 255`, and trailing field `t` denotes `±(2^23 + t) · 2^(e - 150)`. -/

/-- The lower clip bound, about `0.01`: exponent field `120`, so `10737418 · 2^(-30)`. -/
theorem ofBits_lo : Ideal.ofBits .f32 0x3C23D70A#32 = ((10737418 / 2 ^ 30 : ℝ) : EReal) := by
  simp [Ideal.ofBits, Ideal.ieee, -EReal.coe_mul]; norm_num

/-- The upper clip bound, about `0.99`: exponent field `126`, so `16609444 · 2^(-24)`. -/
theorem ofBits_hi : Ideal.ofBits .f32 0x3F7D70A4#32 = ((16609444 / 2 ^ 24 : ℝ) : EReal) := by
  simp [Ideal.ofBits, Ideal.ieee, -EReal.coe_mul]; norm_num

/-- `6.0`. -/
theorem ofBits_six : Ideal.ofBits .f32 0x40C00000#32 = ((6 : ℝ) : EReal) := by
  simp [Ideal.ofBits, Ideal.ieee, -EReal.coe_mul]; norm_num

/-- The f32 nearest `64/3`, about `21.333334`: exponent field `131`, so `11184811 · 2^(-19)`. -/
theorem ofBits_c14 : Ideal.ofBits .f32 0x41AAAAAB#32 = ((11184811 / 2 ^ 19 : ℝ) : EReal) := by
  simp [Ideal.ofBits, Ideal.ieee, -EReal.coe_mul]; norm_num

/-- `8192.0`. -/
theorem ofBits_8192 : Ideal.ofBits .f32 0x46000000#32 = ((8192 : ℝ) : EReal) := by
  simp [Ideal.ofBits, Ideal.ieee, -EReal.coe_mul]; norm_num

/-- `1.0`. -/
theorem ofBits_one : Ideal.ofBits .f32 0x3F800000#32 = ((1 : ℝ) : EReal) := by
  simp [Ideal.ofBits, Ideal.ieee, -EReal.coe_mul]; norm_num

/-! ### Clipping into a real interval, and the logarithm there -/

/-- Clipping any extended real to `[lo, hi]`, `lo ≤ hi` reals, gives a real in that interval: the result is
    at least `lo` (both `hi` and `max lo g` are) and at most `hi`, so it is neither infinity. -/
theorem clip_real {lo hi : ℝ} (h : lo ≤ hi) (g : EReal) :
    ∃ c : ℝ, lo ≤ c ∧ c ≤ hi ∧ min (hi : EReal) (max (lo : EReal) g) = (c : EReal) := by
  generalize hy : min (hi : EReal) (max (lo : EReal) g) = y
  have h1 : (lo : EReal) ≤ y := hy ▸ le_min (EReal.coe_le_coe_iff.mpr h) (le_max_left _ _)
  have h2 : y ≤ (hi : EReal) := hy ▸ min_le_left _ _
  have hb : y ≠ ⊥ := fun e => by rw [e] at h1; exact absurd h1 (not_le.mpr (EReal.bot_lt_coe lo))
  have ht : y ≠ ⊤ := fun e => by rw [e] at h2; exact absurd h2 (not_le.mpr (EReal.coe_lt_top hi))
  lift y to ℝ using ⟨ht, hb⟩
  exact ⟨y, EReal.coe_le_coe_iff.mp h1, EReal.coe_le_coe_iff.mp h2, rfl⟩

/-- On a positive real the extended logarithm is the real one. -/
theorem log_coe_of_pos {c : ℝ} (h : 0 < c) : Ideal.log (c : EReal) = ((Real.log c : ℝ) : EReal) := by
  rw [Ideal.log_coe, if_neg (not_le.mpr h)]

/-- The logarithm of a value clipped to `[lo, hi] ⊆ (0, 1]` is a real at most zero, whatever was clipped. -/
theorem log_clip (g : EReal) :
    ∃ r : ℝ, r ≤ 0 ∧
      Ideal.log (min (Ideal.ofBits .f32 0x3F7D70A4#32) (max (Ideal.ofBits .f32 0x3C23D70A#32) g)) = (r : EReal) := by
  rw [ofBits_lo, ofBits_hi]
  obtain ⟨c, hlo, hhi, hc⟩ := clip_real (lo := 10737418 / 2 ^ 30) (hi := 16609444 / 2 ^ 24) (by norm_num) g
  rw [hc, log_coe_of_pos (lt_of_lt_of_le (by norm_num) hlo)]
  exact ⟨Real.log c, Real.log_nonpos (le_trans (by norm_num) hlo) (le_trans hhi (by norm_num)), rfl⟩

/-! ### Finite sums and quotients of reals inside the extended reals -/

/-- A finite sum of reals, taken in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A real divided by a nonzero real, in the extended reals, is the real quotient. -/
theorem div_coe_coe (a : ℝ) {d : ℝ} (hd : d ≠ 0) :
    Ideal.div (a : EReal) (d : EReal) = ((a * (1 / d) : ℝ) : EReal) := by
  rw [Ideal.div_coe hd, EReal.coe_mul]

/-! ### The chain of stages -/

section Chain

variable (x0 : (⟨S8192x512, .f32⟩ : BufTy).Contents (Elt Ideal)) (x1 : (⟨S513x512, .f32⟩ : BufTy).Contents (Elt Ideal))
  (x2 : (⟨S513, .f32⟩ : BufTy).Contents (Elt Ideal)) (x3 : (⟨S127x513, .f32⟩ : BufTy).Contents (Elt Ideal))
  (x6 x7 : (⟨S128x7, .i32⟩ : BufTy).Contents (Elt Ideal))

/-- Each logarithm of a clipped gathered value is a real `≤ 0`. -/
theorem v50_real (j : S128x7x8192.Idx) :
    ∃ r : ℝ, r ≤ 0 ∧ val_main_v50 (F := Ideal) x0 x1 x2 x3 x6 x7 j = ((r : ℝ) : EReal) := by
  rw [val_main_v50_apply, val_main_v49_apply, val_main_call1_v4_apply, val_main_call1_v3_apply,
    val_main_cst_10_apply, val_main_call1_v2_apply, val_main_call1_v1_apply, val_main_call1_v0_apply,
    val_main_cst_9_apply]
  generalize val_main_v48 (F := Ideal) x0 x1 x2 x3 x6 x7 j = g
  exact log_clip g

/-- `p`: the sum over `k < 7` of those logarithms, from `0`, is a real `≤ 0`. -/
theorem v51_real (i : S128x8192.Idx) :
    ∃ r : ℝ, r ≤ 0 ∧ val_main_v51 (F := Ideal) x0 x1 x2 x3 x6 x7 i = ((r : ℝ) : EReal) := by
  choose f hf0 hf using v50_real x0 x1 x2 x3 x6 x7
  refine ⟨∑ k : Fin 7, f (idx_main_v51 i k), Finset.sum_nonpos fun k _ => hf0 _, ?_⟩
  rw [val_main_v51_apply, val_main_cst_11_apply, Ideal.ofBits_def, Ideal.ofBits_zero_f32, zero_add, ← coe_sum]
  exact Finset.sum_congr rfl fun k _ => hf _

/-- `exp p * p` is a real `≤ 0`: `exp p > 0` and `p ≤ 0`. -/
theorem v53_real (i : S128x8192.Idx) :
    ∃ r : ℝ, r ≤ 0 ∧ val_main_v53 (F := Ideal) x0 x1 x2 x3 x6 x7 i = ((r : ℝ) : EReal) := by
  obtain ⟨p, hp0, hp⟩ := v51_real x0 x1 x2 x3 x6 x7 i
  refine ⟨Real.exp p * p, mul_nonpos_of_nonneg_of_nonpos (Real.exp_pos p).le hp0, ?_⟩
  rw [val_main_v53_apply, val_main_v52_apply, hp, Ideal.hostUnary_exp_def, Ideal.exp_coe, Ideal.mulf_def,
    EReal.coe_mul]

/-- The sum over `l < 128` of those products, from `0`, is a real `≤ 0`. -/
theorem v54_real (b : S8192.Idx) :
    ∃ r : ℝ, r ≤ 0 ∧ val_main_v54 (F := Ideal) x0 x1 x2 x3 x6 x7 b = ((r : ℝ) : EReal) := by
  choose f hf0 hf using v53_real x0 x1 x2 x3 x6 x7
  refine ⟨∑ k : Fin 128, f (idx_main_v54 b k), Finset.sum_nonpos fun k _ => hf0 _, ?_⟩
  rw [val_main_v54_apply, val_main_cst_12_apply, Ideal.ofBits_def, Ideal.ofBits_zero_f32, zero_add, ← coe_sum]
  exact Finset.sum_congr rfl fun k _ => hf _

/-- The divisor `c * log 6` is a positive real: `c > 0`, and `log 6 > 0` since `6 > 1`. -/
theorem v57_real : ∃ d : ℝ, 0 < d ∧ ∀ i : S_.Idx, val_main_v57 (F := Ideal) i = ((d : ℝ) : EReal) := by
  refine ⟨11184811 / 2 ^ 19 * Real.log 6, mul_pos (by norm_num) (Real.log_pos (by norm_num)), fun i => ?_⟩
  rw [val_main_v57_apply, val_main_cst_14_apply, val_main_v56_apply, val_main_cst_13_apply]
  simp only [Ideal.ofBits_def]
  rw [ofBits_c14, ofBits_six, Ideal.hostUnary_log_def, log_coe_of_pos (c := 6) (by norm_num), Ideal.mulf_def,
    EReal.coe_mul]

/-- `e b`: the negated sum over the positive divisor is a real `≥ 0`. -/
theorem v59_real (b : S8192.Idx) :
    ∃ r : ℝ, 0 ≤ r ∧ val_main_v59 (F := Ideal) x0 x1 x2 x3 x6 x7 b = ((r : ℝ) : EReal) := by
  obtain ⟨a, ha0, ha⟩ := v54_real x0 x1 x2 x3 x6 x7 b
  obtain ⟨d, hd0, hd⟩ := v57_real
  refine ⟨-a * (1 / d), mul_nonneg (neg_nonneg.mpr ha0) (one_div_pos.mpr hd0).le, ?_⟩
  rw [val_main_v59_apply, val_main_v55_apply, val_main_v58_apply, hd, ha, Ideal.hostNegf_def, Ideal.negf_def,
    ← EReal.coe_neg, Ideal.hostDivf_def, div_coe_coe _ hd0.ne']

/-- The sum over every `b` of the `e b`, from `0`, is a real `≥ 0`. -/
theorem v66_real :
    ∃ r : ℝ, 0 ≤ r ∧ ∀ i : S_.Idx, val_main_v66 (F := Ideal) x0 x1 x2 x3 x6 x7 i = ((r : ℝ) : EReal) := by
  choose f hf0 hf using v59_real x0 x1 x2 x3 x6 x7
  refine ⟨∑ j : S8192.Idx, f j, Finset.sum_nonneg fun j _ => hf0 j, fun i => ?_⟩
  rw [val_main_v66_apply, val_main_cst_15_apply, Ideal.ofBits_def, Ideal.ofBits_zero_f32, zero_add, ← coe_sum]
  exact Finset.sum_congr rfl fun j _ => hf j

/-- The scale `1 + (∑ b, e b) / 8192` is a real `≥ 1`. -/
theorem scale_ge_one_real :
    ∃ c : ℝ, 1 ≤ c ∧ ∀ i : S_.Idx, val_main_v68 (F := Ideal) x0 x1 x2 x3 x6 x7 i = ((c : ℝ) : EReal) := by
  obtain ⟨a, ha0, ha⟩ := v66_real x0 x1 x2 x3 x6 x7
  refine ⟨1 + a * (1 / 8192), le_add_of_nonneg_right (mul_nonneg ha0 (by norm_num)), fun i => ?_⟩
  rw [val_main_v68_apply, val_main_v67_apply, val_main_cst_17_apply, val_main_cst_16_apply, ha]
  simp only [Ideal.ofBits_def]
  rw [ofBits_one, ofBits_8192, Ideal.hostDivf_def, div_coe_coe a (d := 8192) (by norm_num), Ideal.addf_def,
    EReal.coe_add]

/-- The scale is a nonnegative real, the same at every index, for all arguments. -/
theorem scale_nonneg_real :
    ∃ c : ℝ, 0 ≤ c ∧ ∀ i : S_.Idx, val_main_v68 (F := Ideal) x0 x1 x2 x3 x6 x7 i = ((c : ℝ) : EReal) := by
  obtain ⟨c, hc1, hc⟩ := scale_ge_one_real x0 x1 x2 x3 x6 x7
  exact ⟨c, le_trans zero_le_one hc1, hc⟩

end Chain

end Cert.ScaleSign

end
-- ==== Proof.Bridge.lean ====
/-
  The two programs' results are one array of extended reals.

  The kernel's result at `(R, o)` is its unscaled sum over the arrays its region was handed, times the scale; those
  arrays are the reference's own intermediates of the same arguments, so this is the kernel arrangement of the
  specification.  The reference's result is the reference arrangement.  The scale is a nonnegative real (it is one
  plus a mean of nonnegative entropies), and for such a scale the two arrangements agree.
-/
import proofs.«131044_j66254165508708_2_alg».proof.Proof.KernelRun
import proofs.«131044_j66254165508708_2_alg».proof.Proof.KernelHost
import proofs.«131044_j66254165508708_2_alg».proof.Proof.KernelHostLeafw
import proofs.«131044_j66254165508708_2_alg».proof.Proof.KernelHostScale
import proofs.«131044_j66254165508708_2_alg».proof.Proof.RefValue
import proofs.«131044_j66254165508708_2_alg».proof.Proof.ScaleSign

noncomputable section

open Idealize.ShloMosaic Idealize.ShloMosaic.TcCoe Idealize.SL.Sem Idealize.ShloMosaic.ValueIdx

namespace Cert.Bridge

open Cert.KernelIdeal Cert.KernelIdeal.Gen Cert.KernelIdeal.Chain Cert.KernelIdeal.OutArray Cert.KernelIdeal.Run
  Cert.KernelIdeal.Host Cert.LeafSpec

variable (m : (ℓ : Loc nD τ sig) → Buf (Elt Ideal) ℓ)

/-- The kernel's result is the reference's result stage of the kernel's own arguments. -/
theorem result_eq_ref (c : Dev nD) :
    result m c = Cert.ReferenceIdeal.Read.val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext I
  obtain ⟨R, o, rfl⟩ : ∃ (R : Fin 8192) (o : Fin 256), I = ix2 R o := ⟨I 0, I 1, eq_ix2 I⟩
  obtain ⟨cr, hc0, hcr⟩ := Cert.ScaleSign.scale_nonneg_real (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))
  rw [Cert.RefValue.ref_eq, hcr ix0, ← kerForm_eq_refForm _ _ _ _ cr hc0 R o]
  -- the arrays the region was handed
  have eH : Hb m c = Cert.ReferenceIdeal.Read.val_main_v5 (F := Ideal) (m ((c.tc : Thread nD τ).loc main_arg0)) (m ((c.tc : Thread nD τ).loc main_arg1)) (m ((c.tc : Thread nD τ).loc main_arg2)) := by
    show V m c main_v63 = _
    rw [V_features]
  have eW : Wb m c = (m ((c.tc : Thread nD τ).loc main_arg4)) := by
    show V m c main_v64 = _
    rw [V_weights]
  have eS : Sb m c = Cert.ReferenceIdeal.Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
    show V m c main_v52 = _
    rw [V_leafw]
  have eB : ∀ (L : Fin 128) (q : Fin 256), Bb m c (ix2 L q) = (m ((c.tc : Thread nD τ).loc main_arg5)) (ix1 (leafRow L q)) := fun L q => by
    show V m c main_v65 (ix2 L q) = _
    rw [V_bias m c _ rfl]
    exact shapeCast_apply _ _ _ _ (by
      rw [Shape.rowMajor_val_one, Shape.rowMajor_val_two]
      show 256 * L.val + q.val = L.val * 256 + q.val
      omega)
  have eC : scaleK m c ix0 = (cr : EReal) := by
    show V m c main_v62 ix0 = _
    rw [V_scale]; exact hcr ix0
  show kOut m c (ix2 R o) * scaleK m c ix0 = _
  rw [eC, kOut_eq, eH, eW, eS]
  exact kerSumAt_mul _ _ _ _ (Bb m c) eB (cr : EReal) R o

end Cert.Bridge

end
-- ==== Proof.lean ====
/-
  The certificate: the soft decision-tree kernel and its reference compute the same [8192, 256] array over the
  extended reals.

  Both programs form the features `h = relu(x · W_preᵀ + b_pre)`, route every batch row through the tree to get the
  per-row leaf weights `s_w`, and an entropy-based scale.  The reference then computes
  `Σ_L (h · W_Lᵀ + b_L) · scale · s_w[L]`; the kernel accumulates `Σ_L (h · W_Lᵀ + b_L) · s_w[L]` over a grid of
  4 batch tiles × 16 leaf tiles (8 leaves per body, the 513-term inner product split 512 + 1) and multiplies the
  finished sum by the scale.  The scale is a nonnegative real, so the two are equal on the extended reals for every
  input: the precondition is not needed for the value, and the two kernels' frames are the generated ones.
-/
import proofs.«131044_j66254165508708_2_alg».proof.Defs
import proofs.«131044_j66254165508708_2_alg».proof.Proof.Gen.Kernel
import proofs.«131044_j66254165508708_2_alg».proof.Proof.Gen.Kernel.Skeleton
import proofs.«131044_j66254165508708_2_alg».proof.Proof.Gen.Kernel.Launch
import proofs.«131044_j66254165508708_2_alg».proof.Proof.Gen.Kernel.Points
import proofs.«131044_j66254165508708_2_alg».proof.Proof.Gen.Kernel.Frame
import proofs.«131044_j66254165508708_2_alg».proof.Proof.Gen.KernelIdeal
import proofs.«131044_j66254165508708_2_alg».proof.Proof.Gen.KernelIdeal.Skeleton
import proofs.«131044_j66254165508708_2_alg».proof.Proof.Gen.KernelIdeal.Launch
import proofs.«131044_j66254165508708_2_alg».proof.Proof.Gen.KernelIdeal.Points
import proofs.«131044_j66254165508708_2_alg».proof.Proof.Gen.KernelIdeal.Frame
import proofs.«131044_j66254165508708_2_alg».proof.Proof.Gen.ReferenceIdeal
import proofs.«131044_j66254165508708_2_alg».proof.Proof.Gen.Pre_finite_inputs
import proofs.«131044_j66254165508708_2_alg».proof.Proof.RefRun
import proofs.«131044_j66254165508708_2_alg».proof.Proof.RefRead
import proofs.«131044_j66254165508708_2_alg».proof.Proof.RefFold
import proofs.«131044_j66254165508708_2_alg».proof.Proof.Bridge
import Idealize.ShloMosaic.Adequacy
import Idealize.ShloMosaic.Init

noncomputable section

namespace Cert.Proof

open Idealize.ShloMosaic Idealize.SL.Sem Cert.Kernel

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the same result array: the kernel's result is
    the reference's result stage of the kernel's arguments, and the arguments agree. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [show Cert.ReferenceIdeal.Value.res_main_v75 m' c = _ from Cert.RefFold.fold_v75 m' c, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Bridge.result_eq_ref m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
